-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x4096 .f32) (main_arg8 : FVec F S4096 .f32) (main_arg9 : FVec F S4096x1024 .f32) (main_arg10 : FVec F S1024 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x4096 .f32) (main_arg8 : FVec F S4096 .f32) (main_arg9 : FVec F S4096x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x4096 .f32) (main_arg8 : FVec F S4096 .f32) (main_arg9 : FVec F S4096x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S512x1024 : Shape := ⟨2, ![512, 1024]⟩
abbrev S1x1024 : Shape := ⟨2, ![1, 1024]⟩
abbrev S4096x4096 : Shape := ⟨2, ![4096, 4096]⟩
abbrev S128x1024 : Shape := ⟨2, ![128, 1024]⟩
abbrev S128x4096 : Shape := ⟨2, ![128, 4096]⟩
abbrev S128 : Shape := ⟨1, ![128]⟩
abbrev S128x1 : Shape := ⟨2, ![128, 1]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 22
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S4096x4096, .f32⟩
  | .hbm, ⟨20, _⟩ => ⟨S4096x1024, .f32⟩
  | .hbm, ⟨21, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S128x1024, .f32⟩
  | .local _ .vmem, ⟨15, _⟩ => ⟨S128x1024, .f32⟩
  | .local _ .vmem, ⟨16, _⟩ => ⟨S128x1024, .bf16⟩
  | .local _ .vmem, ⟨17, _⟩ => ⟨S128x1024, .bf16⟩
  | .local _ .vmem, ⟨18, _⟩ => ⟨S4096x1024, .bf16⟩
  | .local _ .vmem, ⟨19, _⟩ => ⟨S4096x1024, .bf16⟩
  | .local _ .vmem, ⟨20, _⟩ => ⟨S128x4096, .f32⟩
  | .local _ .vmem, ⟨21, _⟩ => ⟨S128x4096, .f32⟩
  | .local _ .vmem, ⟨22, _⟩ => ⟨S128x1024, .f32⟩
  | .local _ .vmem, ⟨23, _⟩ => ⟨S128x1024, .f32⟩
  | .local _ .vmem, ⟨24, _⟩ => ⟨S256x1024, .f32⟩
  | .local _ .vmem, ⟨25, _⟩ => ⟨S256x1024, .f32⟩
  | .local _ .vmem, ⟨26, _⟩ => ⟨S1024x4096, .bf16⟩
  | .local _ .vmem, ⟨27, _⟩ => ⟨S4096, .f32⟩
  | .local _ .vmem, ⟨28, _⟩ => ⟨S4096x1024, .bf16⟩
  | .local _ .vmem, ⟨29, _⟩ => ⟨S1024, .f32⟩
  | .local _ .vmem, ⟨30, _⟩ => ⟨S256x1024, .f32⟩
  | .local _ .vmem, ⟨31, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6_0 : Ref sig .tc := ⟨.hbm, 19, rfl⟩
abbrev main_v6_1 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  iota_S128x4096_d0_w32 : S128x4096.Iotas .tc 32 [0]
  iota_S128x4096_d1_w32 : S128x4096.Iotas .tc 32 [1]
  reduces_S128x4096_S128 : S128x4096.Reduces [1] S128
  shapeCasts_S128_S128x1 : S128.ShapeCasts S128x1
  broadcasts_S128x1_S128x4096 : S128x1.Broadcasts S128x4096
  inb_S128x4096_S128x4096_0_0 : ∀ a, (![0, 0] : Fin 2 → Nat) a + S128x4096.size a ≤ S128x4096.size a
  h_S128x4096 : 0 < S128x4096.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S256x4096 : S1x4096.Broadcasts S256x4096
  broadcasts_S1x1024_S256x1024 : S1x1024.Broadcasts S256x1024
  dot_S512x1024_S1024x1024_S512x1024_1_0_0_1_n_n_wf : DotDims.WF S512x1024 S1024x1024 S512x1024 [1] [0] [0] [1] [] []
  dot_S128x1024_S4096x1024_S128x4096_1_1_0_0_n_n_wf : DotDims.WF S128x1024 S4096x1024 S128x4096 [1] [1] [0] [0] [] []
  dot_S128x4096_S4096x1024_S128x1024_1_0_0_1_n_n_wf : DotDims.WF S128x4096 S4096x1024 S128x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .bf16 = 32 ∨ (Rect.block (s := S4096x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .bf16 = 32 ∨ (Rect.block (s := S4096x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .bf16 = 32 ∨ (Rect.block (s := S4096x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .f32 = 32 ∨ (Rect.block (s := S4096x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S4096x1024.size a
  hwx1_1 : ∀ i : grid1.Coords, EltTy.bits .bf16 = 32 ∨ (Rect.block (s := S4096x1024) S128x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x4096.size a ≤ S4096x4096.size a
  hwx1_4 : ∀ i : grid1.Coords, EltTy.bits .f32 = 32 ∨ (Rect.block (s := S4096x4096) S128x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x1024.size a ≤ S4096x1024.size a
  hwx1_5 : ∀ i : grid1.Coords, EltTy.bits .f32 = 32 ∨ (Rect.block (s := S4096x1024) S128x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .f32 = 32 ∨ (Rect.block (s := S4096x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S1024x4096.size a
  hwx2_1 : ∀ i : grid2.Coords, EltTy.bits .bf16 = 32 ∨ (Rect.block (s := S1024x4096) S1024x4096.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096.size a ≤ S4096.size a
  hwx2_2 : ∀ i : grid2.Coords, EltTy.bits .f32 = 32 ∨ (Rect.block (s := S4096) S4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1024.size a ≤ S4096x1024.size a
  hwx2_3 : ∀ i : grid2.Coords, EltTy.bits .bf16 = 32 ∨ (Rect.block (s := S4096x1024) S4096x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S4096x1024.size a
  hwx2_5 : ∀ i : grid2.Coords, EltTy.bits .f32 = 32 ∨ (Rect.block (s := S4096x1024) S256x1024.size (cc2_transform_5 i) (hinb2_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S128x1024_S4096x1024_S128x4096_1_1_0_0_n_n : DotDims S128x1024 S4096x1024 S128x4096 where
  lhsContracting := [1]
  rhsContracting := [1]
  lhsNonContracting := [0]
  rhsNonContracting := [0]
  lhsBatch := []
  rhsBatch := []
  wf := dot_S128x1024_S4096x1024_S128x4096_1_1_0_0_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5_1) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_2) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S128x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S128x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v6_1) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S4096x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S256x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S4096x4096 : Shape := ⟨2, ![4096, 4096]⟩
abbrev S_ : Shape := ⟨0, ![]⟩
abbrev S4096x1 : Shape := ⟨2, ![4096, 1]⟩
abbrev S1x4096 : Shape := ⟨2, ![1, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .i1⟩
  | .hbm, ⟨30, _⟩ => ⟨S4096x4096, .i1⟩
  | .hbm, ⟨31, _⟩ => ⟨S4096x4096, .i32⟩
  | .hbm, ⟨32, _⟩ => ⟨S_, .i32⟩
  | .hbm, ⟨33, _⟩ => ⟨S4096x4096, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .i1⟩
  | .hbm, ⟨38, _⟩ => ⟨S4096x4096, .i1⟩
  | .hbm, ⟨39, _⟩ => ⟨S4096x4096, .i1⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1024, .f32⟩
  | .hbm, ⟨58, _⟩ => ⟨S4096x1024, .f32⟩
  | .hbm, ⟨59, _⟩ => ⟨S4096x4096, .f32⟩
  | .hbm, ⟨60, _⟩ => ⟨S1x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_0 : Ref sig .tc := ⟨.hbm, 37, rfl⟩
abbrev main_call0_v5 : Ref sig .tc := ⟨.hbm, 38, rfl⟩
abbrev main_v18 : Ref sig .tc := ⟨.hbm, 39, rfl⟩
abbrev main_cst_0 : Ref sig .tc := ⟨.hbm, 40, rfl⟩
abbrev main_call1_v0 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call2_cst : Ref sig .tc := ⟨.hbm, 63, rfl⟩
abbrev main_call2_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KernelRun.lean ====
/-
  The kernel program's run, read back to its launch memory.

  @main is a stretch of host operations (the five weight matrices rounded to the matmul format, which at the ideal
  values is the identity) followed by three kernels; between them the buffers hold, in turn, `W1` (after the host
  stretch), `W2`, `W3`, `W4` (after each kernel: its result arrays at what its write-backs leave, every other buffer
  as it was).  This module names the two result buffers in the run's final state (`run_named`) and walks every
  buffer a kernel reads back through those boundaries to the launch memory.
-/
import proofs.«144866_j23407571763374_1_alg».proof.Proof.FrameKernelIdeal
import Idealize.ShloMosaic.Lib.StableHlo.Run

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run with its two result arrays NAMED: every weakly fair execution of @main terminates,
    nothing faulting, with each result buffer at what the last region boundary's contents hold there, and the argument
    arrays as launched.  (The same launch over the same segments as the frame; the final thread state is read at the two
    result buffers as well as at the arguments.) -/
theorem run_named : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_v6_0) = W4 m ρ c (Proc.devRef .tc main_v6_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       h c _ (mem_uc main_v6_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

/-! ## The host stretch: the arguments pass through, each rounded weight matrix is its argument rounded -/

/-- No host operation writes a buffer other than the five rounded weight matrices. -/
theorem W1_of_unwritten (c : Dev nD) (b : Ref sig .tc)
    (hb : b ≠ main_v0 ∧ b ≠ main_v1 ∧ b ≠ main_v2 ∧ b ≠ main_v3 ∧ b ≠ main_v4) :
    W1 m ρ c (Proc.devRef .tc b) = m ((c : Thread nD τ).loc b) :=
  (StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h0, h1, h2, h3, h4⟩ := hb
    exact ⟨StableHlo.devRef_ne_of_ne h0, StableHlo.devRef_ne_of_ne h1, StableHlo.devRef_ne_of_ne h2, StableHlo.devRef_ne_of_ne h3, StableHlo.devRef_ne_of_ne h4⟩))).trans rfl

end Cert.KernelIdeal.RunValue

end
-- ==== Proof.Spec.lean ====
/-
  The mathematics both programs compute, stated once over extended-real arrays, index by index.

  One transformer block over a sequence of 4096 rows of width 1024:
    q, k, v   = x·Wq + bq,  x·Wk + bk,  x·Wv + bv                       (three affine maps)
    s(r, c)   = (Σ_d q(r,d)·k(c,d)) · 2⁻⁵   for c ≤ r,   and  -10⁹  for c > r   (scaled, causally masked scores)
    a(r, c)   = exp (s(r,c) − max_c' s(r,c')) / Σ_c'' exp (s(r,c'') − max_c' s(r,c'))   (row softmax)
    h         = x + a·v
    out       = h + (max (h·W1 + b1) 0)·W2 + b2
  The results are `out` and `a`.  Every sum is a finite sum over a `Fin`, so no order of summation is left in it.
  Every function is stated for a band of `M` query rows starting at row `off` of the sequence (the whole sequence
  is the band `off = 0`, `M = 4096`): each row of the results depends on its own row of `x` only, so a band of the
  result is the same function of the band of the rows.
  Float literals stay as the words the programs print; only the scale is evaluated: dividing by √1024 is
  multiplying by 2⁻⁵ on every extended real.
-/
import Idealize.ShloMosaic.PureOps.Ideal
import Idealize.ShloMosaic.Lib.ValueIdx

noncomputable section

namespace Cert.Spec

open Idealize.ShloMosaic Idealize.ShloMosaic.ValueIdx
open scoped BigOperators

/-- An extended-real matrix of `r` rows and `c` columns, and a vector of `n` entries, as functions of the index. -/
abbrev Mat (r c : Nat) := (⟨2, ![r, c]⟩ : Shape).Idx → EReal
abbrev Vct (n : Nat) := (⟨1, ![n]⟩ : Shape).Idx → EReal

/-- The words the programs print for 2⁻⁵, −10⁹, −∞ and 0. -/
abbrev scaleW : EReal := Ideal.ofBits .f32 0x3D000000#32
abbrev negBigW : EReal := Ideal.ofBits .f32 0xCE6E6B28#32
abbrev negInfW : EReal := Ideal.ofBits .f32 0xFF800000#32
abbrev zeroW : EReal := Ideal.ofBits .f32 0x00000000#32

/-- Entry (r, c) of `x·w + b`: the row of `x` against the column of `w`, plus the column's bias. -/
def affineAt {R K C : Nat} (x : Mat R K) (w : Mat K C) (b : Vct C) (r : Fin R) (c : Fin C) : EReal :=
  (∑ k : Fin K, x (ix2 r k) * w (ix2 k c)) + b (ix1 c)

/-- `x·w + b` as an array. -/
def affine {R K C : Nat} (x : Mat R K) (w : Mat K C) (b : Vct C) : Mat R C :=
  fun i => affineAt x w b (i 0) (i 1)

/-- The scaled score of query row `r` (of a band of `M` query rows) against key row `c` (of `N` key rows). -/
def scoreAt {M N D : Nat} (q : Mat M D) (k : Mat N D) (r : Fin M) (c : Fin N) : EReal :=
  (∑ d : Fin D, q (ix2 r d) * k (ix2 c d)) * scaleW

/-- The causally masked score: a key after the query (whose place in the sequence is `off + r`) gets the finite
    stand-in −10⁹. -/
def maskedAt {M N D : Nat} (off : Nat) (q : Mat M D) (k : Mat N D) (r : Fin M) (c : Fin N) : EReal :=
  if off + r.val < c.val then negBigW else scoreAt q k r c

/-- The maximum of row `r` of the masked scores, folded from −∞. -/
def rowMax {M N D : Nat} (off : Nat) (q : Mat M D) (k : Mat N D) (r : Fin M) : EReal :=
  (Finset.univ : Finset (Fin N)).fold max negInfW (fun c => maskedAt off q k r c)

/-- The shifted exponential and the row's normaliser. -/
def expAt {M N D : Nat} (off : Nat) (q : Mat M D) (k : Mat N D) (r : Fin M) (c : Fin N) : EReal :=
  Ideal.exp (maskedAt off q k r c - rowMax off q k r)
def rowSum {M N D : Nat} (off : Nat) (q : Mat M D) (k : Mat N D) (r : Fin M) : EReal :=
  ∑ c : Fin N, expAt off q k r c

/-- The attention weights: the row softmax of the masked scores. -/
def attnAt {M N D : Nat} (off : Nat) (q : Mat M D) (k : Mat N D) (r : Fin M) (c : Fin N) : EReal :=
  Ideal.div (expAt off q k r c) (rowSum off q k r)
def attn {M N D : Nat} (off : Nat) (q : Mat M D) (k : Mat N D) : Mat M N :=
  fun i => attnAt off q k (i 0) (i 1)

/-- The first residual: `x + a·v`. -/
def mixAt {M N D : Nat} (x : Mat M D) (a : Mat M N) (v : Mat N D) (r : Fin M) (c : Fin D) : EReal :=
  x (ix2 r c) + ∑ j : Fin N, a (ix2 r j) * v (ix2 j c)
def mix {M N D : Nat} (x : Mat M D) (a : Mat M N) (v : Mat N D) : Mat M D :=
  fun i => mixAt x a v (i 0) (i 1)

/-- The hidden layer `max (h·W1 + b1) 0` and the second residual `h + hidden·W2 + b2`. -/
def hiddenAt {N D E : Nat} (h : Mat N D) (w1 : Mat D E) (b1 : Vct E) (r : Fin N) (e : Fin E) : EReal :=
  max (affineAt h w1 b1 r e) zeroW
def hidden {N D E : Nat} (h : Mat N D) (w1 : Mat D E) (b1 : Vct E) : Mat N E :=
  fun i => hiddenAt h w1 b1 (i 0) (i 1)
def ffnAt {N D E : Nat} (h : Mat N D) (w1 : Mat D E) (b1 : Vct E) (w2 : Mat E D) (b2 : Vct D) (r : Fin N) (c : Fin D) : EReal :=
  h (ix2 r c) + affineAt (hidden h w1 b1) w2 b2 r c
def ffn {N D E : Nat} (h : Mat N D) (w1 : Mat D E) (b1 : Vct E) (w2 : Mat E D) (b2 : Vct D) : Mat N D :=
  fun i => ffnAt h w1 b1 w2 b2 (i 0) (i 1)

/-- The block's two results as functions of its eleven arguments. -/
def blockAttn (x : Mat 4096 1024) (wq : Mat 1024 1024) (bq : Vct 1024) (wk : Mat 1024 1024) (bk : Vct 1024) : Mat 4096 4096 :=
  attn 0 (affine x wq bq) (affine x wk bk)
def blockOut (x : Mat 4096 1024) (wq : Mat 1024 1024) (bq : Vct 1024) (wk : Mat 1024 1024) (bk : Vct 1024)
    (wv : Mat 1024 1024) (bv : Vct 1024) (w1 : Mat 1024 4096) (b1 : Vct 4096) (w2 : Mat 4096 1024) (b2 : Vct 1024) : Mat 4096 1024 :=
  ffn (mix x (blockAttn x wq bq wk bk) (affine x wv bv)) w1 b1 w2 b2

/-! ## The scale: dividing by √1024 is multiplying by 2⁻⁵ -/

theorem ofBits_1024 : Ideal.ofBits .f32 0x44800000#32 = ((1024 : ℝ) : EReal) := by
  simp [Ideal.ofBits, Ideal.ieee, -EReal.coe_mul]; norm_num

theorem scaleW_eq : scaleW = ((1 / 32 : ℝ) : EReal) := by
  simp [scaleW, Ideal.ofBits, Ideal.ieee, -EReal.coe_mul]; norm_num

theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num, Real.sqrt_sq (by norm_num)]

/-- On every extended real, the quotient by √1024 is the product with the word for 2⁻⁵. -/
theorem div_sqrt_1024 (s : EReal) : Ideal.div s (Ideal.sqrt (Ideal.ofBits .f32 0x44800000#32)) = s * scaleW := by
  rw [sqrt_1024, Ideal.div_coe (by norm_num : (32 : ℝ) ≠ 0), scaleW_eq]

end Cert.Spec

end
-- ==== Proof.SpecBands.lean ====
/-
  A band of rows of each stage is the same function of the band of rows of its input.

  Every stage of the block reads, for result row `r`, only row `r` of its row-indexed inputs (and all of the weights,
  keys and values).  So when a band `xb` of `M` rows agrees with rows `off .. off+M` of the whole array `x`, the
  stage computed on the band, at the band's row `p`, is the stage computed on the whole array at row `r = off + p`.
  These are the facts that carry a kernel's block-by-block computation to the whole-array function.
-/
import proofs.«144866_j23407571763374_1_alg».proof.Proof.Spec

noncomputable section

namespace Cert.Spec

open Idealize.ShloMosaic Idealize.ShloMosaic.ValueIdx
open scoped BigOperators

/-- An affine map reads one row of its left operand. -/
theorem affineAt_band {M R K C : Nat} (xb : Mat M K) (x : Mat R K) (w : Mat K C) (b : Vct C) (p : Fin M) (r : Fin R) (c : Fin C)
    (h : ∀ k : Fin K, xb (ix2 p k) = x (ix2 r k)) : affineAt xb w b p c = affineAt x w b r c := by
  unfold affineAt
  exact congrArg (· + b (ix1 c)) (Finset.sum_congr rfl fun k _ => by rw [h k])

/-- A score reads one row of the queries. -/
theorem scoreAt_band {M M' N D : Nat} (qb : Mat M D) (q : Mat M' D) (k : Mat N D) (p : Fin M) (r : Fin M') (c : Fin N)
    (h : ∀ d : Fin D, qb (ix2 p d) = q (ix2 r d)) : scoreAt qb k p c = scoreAt q k r c := by
  unfold scoreAt
  exact congrArg (· * scaleW) (Finset.sum_congr rfl fun d _ => by rw [h d])

/-- The masked score depends on the query's place in the sequence and its row of the queries. -/
theorem maskedAt_band {M M' N D : Nat} (offb off : Nat) (qb : Mat M D) (q : Mat M' D) (k : Mat N D) (p : Fin M) (r : Fin M') (c : Fin N)
    (ho : offb + p.val = off + r.val) (h : ∀ d : Fin D, qb (ix2 p d) = q (ix2 r d)) :
    maskedAt offb qb k p c = maskedAt off q k r c := by
  unfold maskedAt
  rw [ho, scoreAt_band qb q k p r c h]

theorem rowMax_band {M M' N D : Nat} (offb off : Nat) (qb : Mat M D) (q : Mat M' D) (k : Mat N D) (p : Fin M) (r : Fin M')
    (ho : offb + p.val = off + r.val) (h : ∀ d : Fin D, qb (ix2 p d) = q (ix2 r d)) :
    rowMax offb qb k p = rowMax off q k r := by
  unfold rowMax
  exact congrArg (Finset.fold max negInfW · Finset.univ) (funext fun c => maskedAt_band offb off qb q k p r c ho h)

theorem expAt_band {M M' N D : Nat} (offb off : Nat) (qb : Mat M D) (q : Mat M' D) (k : Mat N D) (p : Fin M) (r : Fin M') (c : Fin N)
    (ho : offb + p.val = off + r.val) (h : ∀ d : Fin D, qb (ix2 p d) = q (ix2 r d)) :
    expAt offb qb k p c = expAt off q k r c := by
  unfold expAt
  rw [maskedAt_band offb off qb q k p r c ho h, rowMax_band offb off qb q k p r ho h]

theorem rowSum_band {M M' N D : Nat} (offb off : Nat) (qb : Mat M D) (q : Mat M' D) (k : Mat N D) (p : Fin M) (r : Fin M')
    (ho : offb + p.val = off + r.val) (h : ∀ d : Fin D, qb (ix2 p d) = q (ix2 r d)) :
    rowSum offb qb k p = rowSum off q k r := by
  unfold rowSum
  exact Finset.sum_congr rfl fun c _ => expAt_band offb off qb q k p r c ho h

/-- A row of the attention weights depends on the query's place in the sequence and its row of the queries. -/
theorem attnAt_band {M M' N D : Nat} (offb off : Nat) (qb : Mat M D) (q : Mat M' D) (k : Mat N D) (p : Fin M) (r : Fin M') (c : Fin N)
    (ho : offb + p.val = off + r.val) (h : ∀ d : Fin D, qb (ix2 p d) = q (ix2 r d)) :
    attnAt offb qb k p c = attnAt off q k r c := by
  unfold attnAt
  rw [expAt_band offb off qb q k p r c ho h, rowSum_band offb off qb q k p r ho h]

/-- The first residual reads one row of `x` and one row of the weights. -/
theorem mixAt_band {M M' N D : Nat} (xb : Mat M D) (x : Mat M' D) (ab : Mat M N) (a : Mat M' N) (v : Mat N D) (p : Fin M) (r : Fin M') (c : Fin D)
    (hx : xb (ix2 p c) = x (ix2 r c)) (ha : ∀ j : Fin N, ab (ix2 p j) = a (ix2 r j)) :
    mixAt xb ab v p c = mixAt x a v r c := by
  unfold mixAt
  rw [hx]
  exact congrArg (x (ix2 r c) + ·) (Finset.sum_congr rfl fun j _ => by rw [ha j])

/-- The hidden layer and the second residual read one row of `h`. -/
theorem hiddenAt_band {M M' D E : Nat} (hb : Mat M D) (h : Mat M' D) (w1 : Mat D E) (b1 : Vct E) (p : Fin M) (r : Fin M') (e : Fin E)
    (hh : ∀ d : Fin D, hb (ix2 p d) = h (ix2 r d)) : hiddenAt hb w1 b1 p e = hiddenAt h w1 b1 r e := by
  unfold hiddenAt
  rw [affineAt_band hb h w1 b1 p r e hh]

theorem ffnAt_band {M M' D E : Nat} (hb : Mat M D) (h : Mat M' D) (w1 : Mat D E) (b1 : Vct E) (w2 : Mat E D) (b2 : Vct D) (p : Fin M) (r : Fin M') (c : Fin D)
    (hh : ∀ d : Fin D, hb (ix2 p d) = h (ix2 r d)) : ffnAt hb w1 b1 w2 b2 p c = ffnAt h w1 b1 w2 b2 r c := by
  unfold ffnAt
  rw [hh c]
  refine congrArg (h (ix2 r c) + ·) (affineAt_band (hidden hb w1 b1) (hidden h w1 b1) w2 b2 p r c fun e => ?_)
  show hiddenAt hb w1 b1 p e = hiddenAt h w1 b1 r e
  exact hiddenAt_band hb h w1 b1 p r e hh

end Cert.Spec

end
-- ==== Proof.DenseBody.lean ====
/-
  The two dense bodies read at an entry.

  The projection body computes, for a band of 512 rows x, a weight matrix w and a bias b, the array x·w + b; the
  feed-forward body computes, for a band of 256 rows h, the array h + max (h·W1 + b1) 0 · W2 + b2. On the extended
  reals narrowing a value to a shorter float format is the identity, a cast to the same shape is the identity, a
  matrix product accumulated into zeros is the finite sum over the contracted axis, and a bias laid out as one row
  and repeated down the rows reads the bias at the column. So each body, read at entry (p, c), is the specification's
  entry: `Cert.Spec.affineAt` for the three projections and `Cert.Spec.ffnAt` for the feed-forward body.
-/
import proofs.«144866_j23407571763374_1_alg».proof.Proof.Gen.KernelIdeal.Skeleton
import proofs.«144866_j23407571763374_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.DenseBody

open Idealize.ShloMosaic Idealize.ShloMosaic.ValueIdx Cert.KernelIdeal Cert.KernelIdeal.Gen
open scoped BigOperators

/-! ## The three matrix products at an entry

Each product contracts the one shared axis: the left operand's columns against the right operand's rows. Read at
entry (p, c) it is the sum over that axis of the left operand's row p times the right operand's column c; nothing
is added to it, the product being accumulated into zeros. The contraction index is a one-axis index, re-indexed by
its single coordinate. -/

/-- The projections' product: 512 × 1024 by 1024 × 1024. -/
abbrev dotProj := dot_S512x1024_S1024x1024_S512x1024_1_0_0_1_n_n

theorem dotProj_lhs_row (j : S512x1024.Idx) (q : dotProj.contr.Idx) : (dotProj.lhsIdx j q 0).val = (j 0).val := by
  unfold DotDims.lhsIdx
  rw [dif_neg (show ¬(0 : Fin S512x1024.rank) ∈ dotProj.lhsBatch by decide),
    dif_pos (show (0 : Fin S512x1024.rank) ∈ dotProj.lhsNonContracting by decide)]
  rfl

theorem dotProj_rhs_col (j : S512x1024.Idx) (q : dotProj.contr.Idx) : (dotProj.rhsIdx j q 1).val = (j 1).val := by
  unfold DotDims.rhsIdx
  rw [dif_neg (show ¬(1 : Fin S1024x1024.rank) ∈ dotProj.rhsBatch by decide),
    dif_pos (show (1 : Fin S1024x1024.rank) ∈ dotProj.rhsNonContracting by decide)]
  rfl

/-- Entry (p, c) of the product accumulated into zeros: row p of the left operand against column c of the right. -/
theorem dotProj_apply (a : FVec Ideal S512x1024 .bf16) (w : FVec Ideal S1024x1024 .bf16) (p : Fin 512) (c : Fin 1024) :
    matmul dotProj none a w (constant (F := Ideal) S512x1024 .f32 0x00000000#32) (ix2 p c)
      = ∑ k : Fin 1024, a (ix2 p k) * w (ix2 k c) := by
  simp only [matmul]
  rw [Ideal.matmul_constant_zero_apply, ← Equiv.sum_comp (contrEquiv1 dotProj 1024 rfl rfl).symm]
  refine Finset.sum_congr rfl fun k _ => ?_
  have hk := contrEquiv1_symm_val dotProj 1024 rfl rfl k
  have el : dotProj.lhsIdx (ix2 p c) ((contrEquiv1 dotProj 1024 rfl rfl).symm k) = ix2 p k :=
    funext fun x => Fin.ext (by
      match x with
      | ⟨0, _⟩ => exact dotProj_lhs_row _ _
      | ⟨1, _⟩ => exact (dotProj.lhsIdx_val_of_single rfl _ _).trans hk)
  have er : dotProj.rhsIdx (ix2 p c) ((contrEquiv1 dotProj 1024 rfl rfl).symm k) = ix2 k c :=
    funext fun x => Fin.ext (by
      match x with
      | ⟨0, _⟩ => exact (dotProj.rhsIdx_val_of_single rfl _ _).trans hk
      | ⟨1, _⟩ => exact dotProj_rhs_col _ _)
  rw [el, er]

/-- The hidden layer's product: 256 × 1024 by 1024 × 4096. -/
abbrev dotUp := dot_S256x1024_S1024x4096_S256x4096_1_0_0_1_n_n

theorem dotUp_lhs_row (j : S256x4096.Idx) (q : dotUp.contr.Idx) : (dotUp.lhsIdx j q 0).val = (j 0).val := by
  unfold DotDims.lhsIdx
  rw [dif_neg (show ¬(0 : Fin S256x1024.rank) ∈ dotUp.lhsBatch by decide),
    dif_pos (show (0 : Fin S256x1024.rank) ∈ dotUp.lhsNonContracting by decide)]
  rfl

theorem dotUp_rhs_col (j : S256x4096.Idx) (q : dotUp.contr.Idx) : (dotUp.rhsIdx j q 1).val = (j 1).val := by
  unfold DotDims.rhsIdx
  rw [dif_neg (show ¬(1 : Fin S1024x4096.rank) ∈ dotUp.rhsBatch by decide),
    dif_pos (show (1 : Fin S1024x4096.rank) ∈ dotUp.rhsNonContracting by decide)]
  rfl

/-- Entry (p, c) of the product accumulated into zeros: row p of the left operand against column c of the right. -/
theorem dotUp_apply (a : FVec Ideal S256x1024 .bf16) (w : FVec Ideal S1024x4096 .bf16) (p : Fin 256) (c : Fin 4096) :
    matmul dotUp none a w (constant (F := Ideal) S256x4096 .f32 0x00000000#32) (ix2 p c)
      = ∑ k : Fin 1024, a (ix2 p k) * w (ix2 k c) := by
  simp only [matmul]
  rw [Ideal.matmul_constant_zero_apply, ← Equiv.sum_comp (contrEquiv1 dotUp 1024 rfl rfl).symm]
  refine Finset.sum_congr rfl fun k _ => ?_
  have hk := contrEquiv1_symm_val dotUp 1024 rfl rfl k
  have el : dotUp.lhsIdx (ix2 p c) ((contrEquiv1 dotUp 1024 rfl rfl).symm k) = ix2 p k :=
    funext fun x => Fin.ext (by
      match x with
      | ⟨0, _⟩ => exact dotUp_lhs_row _ _
      | ⟨1, _⟩ => exact (dotUp.lhsIdx_val_of_single rfl _ _).trans hk)
  have er : dotUp.rhsIdx (ix2 p c) ((contrEquiv1 dotUp 1024 rfl rfl).symm k) = ix2 k c :=
    funext fun x => Fin.ext (by
      match x with
      | ⟨0, _⟩ => exact (dotUp.rhsIdx_val_of_single rfl _ _).trans hk
      | ⟨1, _⟩ => exact dotUp_rhs_col _ _)
  rw [el, er]

/-- The output layer's product: 256 × 4096 by 4096 × 1024. -/
abbrev dotDown := dot_S256x4096_S4096x1024_S256x1024_1_0_0_1_n_n

theorem dotDown_lhs_row (j : S256x1024.Idx) (q : dotDown.contr.Idx) : (dotDown.lhsIdx j q 0).val = (j 0).val := by
  unfold DotDims.lhsIdx
  rw [dif_neg (show ¬(0 : Fin S256x4096.rank) ∈ dotDown.lhsBatch by decide),
    dif_pos (show (0 : Fin S256x4096.rank) ∈ dotDown.lhsNonContracting by decide)]
  rfl

theorem dotDown_rhs_col (j : S256x1024.Idx) (q : dotDown.contr.Idx) : (dotDown.rhsIdx j q 1).val = (j 1).val := by
  unfold DotDims.rhsIdx
  rw [dif_neg (show ¬(1 : Fin S4096x1024.rank) ∈ dotDown.rhsBatch by decide),
    dif_pos (show (1 : Fin S4096x1024.rank) ∈ dotDown.rhsNonContracting by decide)]
  rfl

/-- Entry (p, c) of the product accumulated into zeros: row p of the left operand against column c of the right. -/
theorem dotDown_apply (a : FVec Ideal S256x4096 .bf16) (w : FVec Ideal S4096x1024 .bf16) (p : Fin 256) (c : Fin 1024) :
    matmul dotDown none a w (constant (F := Ideal) S256x1024 .f32 0x00000000#32) (ix2 p c)
      = ∑ k : Fin 4096, a (ix2 p k) * w (ix2 k c) := by
  simp only [matmul]
  rw [Ideal.matmul_constant_zero_apply, ← Equiv.sum_comp (contrEquiv1 dotDown 4096 rfl rfl).symm]
  refine Finset.sum_congr rfl fun k _ => ?_
  have hk := contrEquiv1_symm_val dotDown 4096 rfl rfl k
  have el : dotDown.lhsIdx (ix2 p c) ((contrEquiv1 dotDown 4096 rfl rfl).symm k) = ix2 p k :=
    funext fun x => Fin.ext (by
      match x with
      | ⟨0, _⟩ => exact dotDown_lhs_row _ _
      | ⟨1, _⟩ => exact (dotDown.lhsIdx_val_of_single rfl _ _).trans hk)
  have er : dotDown.rhsIdx (ix2 p c) ((contrEquiv1 dotDown 4096 rfl rfl).symm k) = ix2 k c :=
    funext fun x => Fin.ext (by
      match x with
      | ⟨0, _⟩ => exact (dotDown.rhsIdx_val_of_single rfl _ _).trans hk
      | ⟨1, _⟩ => exact dotDown_rhs_col _ _)
  rw [el, er]

/-! ## The bias row

A bias vector of n entries is laid out as a one-row matrix and that row is repeated down the a rows: entry (p, c) of
the result is entry c of the vector, whatever the row. -/

theorem biasRow_apply {a n : ℕ} (b : (⟨1, ![n]⟩ : Shape).Idx → EReal)
    (h1 : (⟨1, ![n]⟩ : Shape).ShapeCasts ⟨2, ![1, n]⟩) (h2 : (⟨2, ![1, n]⟩ : Shape).Broadcasts ⟨2, ![a, n]⟩)
    (p : Fin a) (c : Fin n) :
    broadcastTo ⟨2, ![a, n]⟩ (shapeCast ⟨2, ![1, n]⟩ b h1) h2 (ix2 p c) = b (ix1 c) :=
  (broadcastTo_1b_ab_apply _ h2 p c).trans (shapeCast_a_1a_apply b h1 0 c)

/-! ## The projection body

Narrowing a value to the shorter float format changes nothing on the extended reals, and a cast to the same shape
is the identity, so the body is: the product of the rows with the weights, plus the bias row. The three projections
are the same function of their own weights and bias. -/

theorem affineBody_apply (xb : Vec Ideal S512x1024 .f32) (w : Vec Ideal S1024x1024 .bf16) (b : Vec Ideal S1024 .f32)
    (p : Fin 512) (c : Fin 1024) :
    matmul dotProj none (truncf .bf16 xb bitsLt_bf16_f32 : FVec Ideal S512x1024 .bf16)
        (shapeCast S1024x1024 w shapeCasts_S1024x1024_S1024x1024 : FVec Ideal S1024x1024 .bf16) (constant (F := Ideal) S512x1024 .f32 0x00000000#32) (ix2 p c)
      + (broadcastTo S512x1024 (shapeCast S1x1024 b shapeCasts_S1024_S1x1024 : FVec Ideal S1x1024 .f32) broadcasts_S1x1024_S512x1024 : FVec Ideal S512x1024 .f32) (ix2 p c)
      = Cert.Spec.affineAt xb w b p c := by
  rw [shapeCast_self, dotProj_apply, biasRow_apply]
  rfl

/-! ## The feed-forward body

The hidden layer is the larger of (rows times the first weights, plus the first bias row) and zero; narrowing it to
the shorter float format changes nothing on the extended reals. The body's result is the rows themselves plus (the
hidden layer times the second weights, plus the second bias row). -/

/-- Rows times the first weights plus the first bias row, at entry (p, e). -/
theorem affineUp_apply (hb : Vec Ideal S256x1024 .f32) (w1 : Vec Ideal S1024x4096 .bf16) (b1 : Vec Ideal S4096 .f32)
    (p : Fin 256) (e : Fin 4096) :
    matmul dotUp none
        (truncf .bf16 (shapeCast S256x1024 hb shapeCasts_S256x1024_S256x1024 : FVec Ideal S256x1024 .f32) bitsLt_bf16_f32 : FVec Ideal S256x1024 .bf16)
        (shapeCast S1024x4096 w1 shapeCasts_S1024x4096_S1024x4096 : FVec Ideal S1024x4096 .bf16)
        (constant (F := Ideal) S256x4096 .f32 0x00000000#32) (ix2 p e)
      + (broadcastTo S256x4096 (shapeCast S1x4096 b1 shapeCasts_S4096_S1x4096 : FVec Ideal S1x4096 .f32) broadcasts_S1x4096_S256x4096 : FVec Ideal S256x4096 .f32) (ix2 p e)
      = Cert.Spec.affineAt hb w1 b1 p e := by
  rw [shapeCast_self, shapeCast_self, dotUp_apply, biasRow_apply]
  rfl

/-- The hidden layer as the body computes it: the maximum is taken with the affine map first and zero second. -/
def hiddenBody (hb : Vec Ideal S256x1024 .f32) (w1 : Vec Ideal S1024x4096 .bf16) (b1 : Vec Ideal S4096 .f32) :
    FVec Ideal S256x4096 .bf16 :=
  truncf .bf16
    (maximumf
      (addf
        (matmul dotUp none
          (truncf .bf16 (shapeCast S256x1024 hb shapeCasts_S256x1024_S256x1024 : FVec Ideal S256x1024 .f32) bitsLt_bf16_f32 : FVec Ideal S256x1024 .bf16)
          (shapeCast S1024x4096 w1 shapeCasts_S1024x4096_S1024x4096 : FVec Ideal S1024x4096 .bf16)
          (constant (F := Ideal) S256x4096 .f32 0x00000000#32))
        (broadcastTo S256x4096 (shapeCast S1x4096 b1 shapeCasts_S4096_S1x4096 : FVec Ideal S1x4096 .f32) broadcasts_S1x4096_S256x4096 : FVec Ideal S256x4096 .f32))
      (broadcast S256x4096 (Scalar.ofBits (F := Ideal) .f32 0x00000000#32)))
    bitsLt_bf16_f32

theorem hiddenBody_apply (hb : Vec Ideal S256x1024 .f32) (w1 : Vec Ideal S1024x4096 .bf16) (b1 : Vec Ideal S4096 .f32)
    (p : Fin 256) (e : Fin 4096) :
    hiddenBody hb w1 b1 (ix2 p e) = Cert.Spec.hiddenAt hb w1 b1 p e := by
  unfold hiddenBody
  rw [truncf_apply, maximumf_apply, addf_apply, broadcast_apply, affineUp_apply]
  rfl

/-- The body is the rows plus (the hidden layer times the second weights plus the second bias row). -/
theorem k2_pay1_eq (hb : Vec Ideal S256x1024 .f32) (w1 : Vec Ideal S1024x4096 .bf16) (b1 : Vec Ideal S4096 .f32)
    (w2 : Vec Ideal S4096x1024 .bf16) (b2 : Vec Ideal S1024 .f32) :
    k2_pay1 (F := Ideal) hb w1 b1 w2 b2 =
      addf (shapeCast S256x1024 hb shapeCasts_S256x1024_S256x1024 : FVec Ideal S256x1024 .f32)
        (addf
          (matmul dotDown none (hiddenBody hb w1 b1)
            (shapeCast S4096x1024 w2 shapeCasts_S4096x1024_S4096x1024 : FVec Ideal S4096x1024 .bf16)
            (constant (F := Ideal) S256x1024 .f32 0x00000000#32))
          (broadcastTo S256x1024 (shapeCast S1x1024 b2 shapeCasts_S1024_S1x1024 : FVec Ideal S1x1024 .f32) broadcasts_S1x1024_S256x1024 : FVec Ideal S256x1024 .f32)) :=
  rfl

/-! ## The four bodies at an entry -/

theorem proj_q_apply (xb : Vec Ideal S512x1024 .f32) (w : Vec Ideal S1024x1024 .bf16) (b : Vec Ideal S1024 .f32) (p : Fin 512) (c : Fin 1024) :
    k0_pay2 (F := Ideal) xb w b (ix2 p c) = Cert.Spec.affineAt xb w b p c :=
  affineBody_apply xb w b p c

theorem proj_k_apply (xb : Vec Ideal S512x1024 .f32) (w : Vec Ideal S1024x1024 .bf16) (b : Vec Ideal S1024 .f32) (p : Fin 512) (c : Fin 1024) :
    k0_pay3 (F := Ideal) xb w b (ix2 p c) = Cert.Spec.affineAt xb w b p c :=
  affineBody_apply xb w b p c

theorem proj_v_apply (xb : Vec Ideal S512x1024 .f32) (w : Vec Ideal S1024x1024 .bf16) (b : Vec Ideal S1024 .f32) (p : Fin 512) (c : Fin 1024) :
    k0_pay4 (F := Ideal) xb w b (ix2 p c) = Cert.Spec.affineAt xb w b p c :=
  affineBody_apply xb w b p c

theorem ffn_apply (hb : Vec Ideal S256x1024 .f32) (w1 : Vec Ideal S1024x4096 .bf16) (b1 : Vec Ideal S4096 .f32) (w2 : Vec Ideal S4096x1024 .bf16) (b2 : Vec Ideal S1024 .f32) (p : Fin 256) (c : Fin 1024) :
    k2_pay1 (F := Ideal) hb w1 b1 w2 b2 (ix2 p c) = Cert.Spec.ffnAt hb w1 b1 w2 b2 p c := by
  rw [k2_pay1_eq, addf_apply, addf_apply, shapeCast_self, shapeCast_self, dotDown_apply, biasRow_apply]
  unfold Cert.Spec.ffnAt Cert.Spec.affineAt
  refine congrArg (fun s => hb (ix2 p c) + (s + b2 (ix1 c))) (Finset.sum_congr rfl fun e _ => ?_)
  rw [hiddenBody_apply]
  rfl

end Cert.DenseBody

end
-- ==== Proof.ProjValue.lean ====
/-
  The three projections as whole arrays.

  The sequence's 4096 rows are processed in 8 bands of 512 rows. At band t the body computes, from the band of x and
  the whole weight matrix and bias, the affine map of the band; an affine map reads, for its row r, only row r of its
  left operand, so entry (p, c) of the band's result is entry (512 t + p, c) of the affine map of the whole array.
  Each band's result is written back to rows 512 t … 512 t + 511 of the result array, and the bands fill the array
  (row r lies in band r / 512): after the run each result array is the affine map of the whole arrays.
-/
import proofs.«144866_j23407571763374_1_alg».proof.Proof.FrameKernelIdeal
import proofs.«144866_j23407571763374_1_alg».proof.Proof.SpecBands
import proofs.«144866_j23407571763374_1_alg».proof.Proof.DenseBody
import Idealize.ShloMosaic.Lib.Pipeline.Value
import Idealize.ShloMosaic.Lib.ValueIdx

noncomputable section

namespace Cert.KernelIdeal.ProjValue

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-- The zero offsets of a whole-block access, on two axes and on one. -/
theorem zero2 : (![0, 0] : Fin 2 → Nat) = fun _ => 0 := funext fun a => by fin_cases a <;> rfl
theorem zero1 : (![0] : Fin 1 → Nat) = fun _ => 0 := funext fun a => by fin_cases a <;> rfl

/-! ## The windows' block indices, decided over the eight points

The rows' window and the three result windows move down one block of rows per point; the weights' and the biases'
windows stay on their one block, the whole array. -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_5 : ∀ t : Fin cfg0.N, win0_5.index t (0 : Fin 2) = 0 ∧ win0_5.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_4 : ∀ t : Fin cfg0.N, win0_4.index t (0 : Fin 1) = 0 :=
  (by decide +kernel : ∀ t : Fin grid0.N, _)
theorem idx0_6 : ∀ t : Fin cfg0.N, win0_6.index t (0 : Fin 1) = 0 :=
  (by decide +kernel : ∀ t : Fin grid0.N, _)
theorem idx0_7 : ∀ t : Fin cfg0.N, win0_7.index t (0 : Fin 2) = t.val ∧ win0_7.index t (1 : Fin 2) = 0 :=
  (by decide +kernel : ∀ t : Fin grid0.N, _)
theorem idx0_8 : ∀ t : Fin cfg0.N, win0_8.index t (0 : Fin 2) = t.val ∧ win0_8.index t (1 : Fin 2) = 0 :=
  (by decide +kernel : ∀ t : Fin grid0.N, _)
theorem idx0_9 : ∀ t : Fin cfg0.N, win0_9.index t (0 : Fin 2) = t.val ∧ win0_9.index t (1 : Fin 2) = 0 :=
  (by decide +kernel : ∀ t : Fin grid0.N, _)

/-! ## The input windows' blocks read off their arrays -/

/-- Block t of the row-banded input is rows 512 t … 512 t + 511 of its array. -/
theorem blk0_0_apply (c : Dev nD) (t : Fin cfg0.N) (p : Fin 512) (k : Fin 1024) (r : Fin 4096) (hr : r.val = 512 * t.val + p.val) :
    (iblk0 V c 0 t : Vec Ideal S512x1024 .f32) (ix2 p k) = (V c main_arg0 : Vec Ideal S4096x1024 .f32) (ix2 r k) := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

theorem blk0_1_eq (c : Dev nD) (t : Fin cfg0.N) : (iblk0 V c 1 t : Vec Ideal S1024x1024 .bf16) = V c main_v0 := by
  obtain ⟨e0, e1⟩ := idx0_1 t
  funext y
  unfold iblk0
  rw [View.read_apply]
  show V c main_v0 _ = V c main_v0 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

theorem blk0_2_eq (c : Dev nD) (t : Fin cfg0.N) : (iblk0 V c 2 t : Vec Ideal S1024 .f32) = V c main_arg2 := by
  have e0 := idx0_2 t
  funext y
  unfold iblk0
  rw [View.read_apply]
  show V c main_arg2 _ = V c main_arg2 y
  congr 1
  funext a
  apply Fin.ext
  match a with
  | ⟨0, _⟩ => show win0_2.index t (0 : Fin 1) * 1024 + 1 * (y 0).val = (y 0).val; rw [e0]; omega

theorem blk0_3_eq (c : Dev nD) (t : Fin cfg0.N) : (iblk0 V c 3 t : Vec Ideal S1024x1024 .bf16) = V c main_v1 := by
  obtain ⟨e0, e1⟩ := idx0_3 t
  funext y
  unfold iblk0
  rw [View.read_apply]
  show V c main_v1 _ = V c main_v1 y
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

theorem blk0_4_eq (c : Dev nD) (t : Fin cfg0.N) : (iblk0 V c 4 t : Vec Ideal S1024 .f32) = V c main_arg4 := by
  have e0 := idx0_4 t
  funext y
  unfold iblk0
  rw [View.read_apply]
  show V c main_arg4 _ = V c main_arg4 y
  congr 1
  funext a
  apply Fin.ext
  match a with
  | ⟨0, _⟩ => show win0_4.index t (0 : Fin 1) * 1024 + 1 * (y 0).val = (y 0).val; rw [e0]; omega

theorem blk0_5_eq (c : Dev nD) (t : Fin cfg0.N) : (iblk0 V c 5 t : Vec Ideal S1024x1024 .bf16) = V c main_v2 := by
  obtain ⟨e0, e1⟩ := idx0_5 t
  funext y
  unfold iblk0
  rw [View.read_apply]
  show V c main_v2 _ = V c main_v2 y
  congr 1
  funext a
  apply Fin.ext
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

theorem blk0_6_eq (c : Dev nD) (t : Fin cfg0.N) : (iblk0 V c 6 t : Vec Ideal S1024 .f32) = V c main_arg6 := by
  have e0 := idx0_6 t
  funext y
  unfold iblk0
  rw [View.read_apply]
  show V c main_arg6 _ = V c main_arg6 y
  congr 1
  funext a
  apply Fin.ext
  match a with
  | ⟨0, _⟩ => show win0_6.index t (0 : Fin 1) * 1024 + 1 * (y 0).val = (y 0).val; rw [e0]; omega

/-! ## The first projection (output window 7) -/

/-- What the body computes at entry j of the band's block is the affine map of the whole arrays at the array's
    entry that j is embedded at: the body is the affine map of the band (the dense body at an entry), the weights'
    and the bias's blocks are the whole arrays, and the affine map reads one row of its left operand. -/
theorem point_q (c : Dev nD) (t : Fin cfg0.N) (j : S512x1024.Idx) :
    k0_pay2 (F := Ideal) (iblk0 V c 0 t) (iblk0 V c 1 t) (iblk0 V c 2 t) j
      = Cert.Spec.affine (V c main_arg0) (V c main_v0) (V c main_arg2) (((cfg0.win 7).blk t).view.emb j) := by
  obtain ⟨p, q, rfl⟩ : ∃ (p : Fin 512) (q : Fin 1024), j = ix2 p q := ⟨j 0, j 1, eq_ix2 j⟩
  obtain ⟨e0, e1⟩ := idx0_7 t
  have hN : grid0.N = 8 := N_0
  have ht : t.val < grid0.N := t.isLt
  have hp : p.val < 512 := p.isLt
  have hr : 512 * t.val + p.val < 4096 := by omega
  have hemb : ((cfg0.win 7).blk t).view.emb (ix2 p q) = (ix2 (⟨512 * t.val + p.val, hr⟩ : Fin 4096) q : S4096x1024.Idx) := by
    funext a
    apply Fin.ext
    match a with
    | ⟨0, _⟩ => show win0_7.index t (0 : Fin 2) * 512 + 1 * p.val = 512 * t.val + p.val; rw [e0]; omega
    | ⟨1, _⟩ => show win0_7.index t (1 : Fin 2) * 1024 + 1 * q.val = q.val; rw [e1]; omega
  rw [hemb]
  refine (Cert.DenseBody.proj_q_apply (iblk0 V c 0 t) (iblk0 V c 1 t) (iblk0 V c 2 t) p q).trans ?_
  refine (congrArg₂ (fun (w : Vec Ideal S1024x1024 .bf16) (b : Vec Ideal S1024 .f32) =>
      Cert.Spec.affineAt (iblk0 V c 0 t : Vec Ideal S512x1024 .f32) w b p q) (blk0_1_eq V c t) (blk0_2_eq V c t)).trans ?_
  exact Cert.Spec.affineAt_band (iblk0 V c 0 t : Vec Ideal S512x1024 .f32) (V c main_arg0) (V c main_v0) (V c main_arg2) p
    ⟨512 * t.val + p.val, hr⟩ q (fun k => blk0_0_apply V c t p k ⟨512 * t.val + p.val, hr⟩ rfl)

/-- What point t writes back is block t of the affine map of the whole arrays. -/
theorem flushed_q (c : Dev nD) (t : Fin cfg0.N) :
    (dat0 V c).flushed 7 t = ((cfg0.win 7).blk t).view.read (Elt Ideal) (Cert.Spec.affine (V c main_arg0) (V c main_v0) (V c main_arg2)) := by
  show (cfg0.win 7).cut (grid0.coords t) ((dat0 V c).after 7 t) = _
  rw [after0_7]
  unfold out0_7
  rw [View.canon_unit_zero zero2]
  simp only [View.ld_unit_zero (S := S512x1024) zero2, View.ld_unit_zero (S := S1024x1024) zero2, View.ld_unit_zero (S := S1024) zero1]
  funext j
  show k0_pay2 (F := Ideal) (iblk0 V c 0 t) (iblk0 V c 1 t) (iblk0 V c 2 t) j
    = Cert.Spec.affine (V c main_arg0) (V c main_v0) (V c main_arg2) (((cfg0.win 7).blk t).view.emb j)
  exact point_q V c t j

/-- An index of the array is in point t's block iff each coordinate is in the block's range on its axis. -/
theorem mem_blk_q (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v5_0).slice (win0_7.rect t)).set ↔ _
  rw [View.set_slice_whole, Rect.mem_set_unit]
  exact Iff.rfl

/-- Every row r of the array lies in the block of the point r / 512, which writes its block back. -/
theorem cover_q (i : S4096x1024.Idx) : ∃ t : Fin cfg0.N, (cfg0.win 7).flush t = true ∧ i ∈ ((cfg0.win 7).blk t).view.set := by
  have hN : grid0.N = 8 := N_0
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [hN]; omega⟩, rfl⟩
  obtain ⟨e0, e1⟩ := idx0_7 t
  refine ⟨t, flush0_7 t, ?_⟩
  rw [mem_blk_q]
  intro a
  match a with
  | ⟨0, _⟩ => show win0_7.index t (0 : Fin 2) * 512 ≤ (i 0).val ∧ (i 0).val < win0_7.index t (0 : Fin 2) * 512 + 512; rw [e0]; omega
  | ⟨1, _⟩ => show win0_7.index t (1 : Fin 2) * 1024 ≤ (i 1).val ∧ (i 1).val < win0_7.index t (1 : Fin 2) * 1024 + 1024; rw [e1]; omega

/-! ## The second projection (output window 8) -/

/-- What the body computes at entry j of the band's block is the affine map of the whole arrays at the array's
    entry that j is embedded at: the body is the affine map of the band (the dense body at an entry), the weights'
    and the bias's blocks are the whole arrays, and the affine map reads one row of its left operand. -/
theorem point_k (c : Dev nD) (t : Fin cfg0.N) (j : S512x1024.Idx) :
    k0_pay3 (F := Ideal) (iblk0 V c 0 t) (iblk0 V c 3 t) (iblk0 V c 4 t) j
      = Cert.Spec.affine (V c main_arg0) (V c main_v1) (V c main_arg4) (((cfg0.win 8).blk t).view.emb j) := by
  obtain ⟨p, q, rfl⟩ : ∃ (p : Fin 512) (q : Fin 1024), j = ix2 p q := ⟨j 0, j 1, eq_ix2 j⟩
  obtain ⟨e0, e1⟩ := idx0_8 t
  have hN : grid0.N = 8 := N_0
  have ht : t.val < grid0.N := t.isLt
  have hp : p.val < 512 := p.isLt
  have hr : 512 * t.val + p.val < 4096 := by omega
  have hemb : ((cfg0.win 8).blk t).view.emb (ix2 p q) = (ix2 (⟨512 * t.val + p.val, hr⟩ : Fin 4096) q : S4096x1024.Idx) := by
    funext a
    apply Fin.ext
    match a with
    | ⟨0, _⟩ => show win0_8.index t (0 : Fin 2) * 512 + 1 * p.val = 512 * t.val + p.val; rw [e0]; omega
    | ⟨1, _⟩ => show win0_8.index t (1 : Fin 2) * 1024 + 1 * q.val = q.val; rw [e1]; omega
  rw [hemb]
  refine (Cert.DenseBody.proj_k_apply (iblk0 V c 0 t) (iblk0 V c 3 t) (iblk0 V c 4 t) p q).trans ?_
  refine (congrArg₂ (fun (w : Vec Ideal S1024x1024 .bf16) (b : Vec Ideal S1024 .f32) =>
      Cert.Spec.affineAt (iblk0 V c 0 t : Vec Ideal S512x1024 .f32) w b p q) (blk0_3_eq V c t) (blk0_4_eq V c t)).trans ?_
  exact Cert.Spec.affineAt_band (iblk0 V c 0 t : Vec Ideal S512x1024 .f32) (V c main_arg0) (V c main_v1) (V c main_arg4) p
    ⟨512 * t.val + p.val, hr⟩ q (fun k => blk0_0_apply V c t p k ⟨512 * t.val + p.val, hr⟩ rfl)

/-- What point t writes back is block t of the affine map of the whole arrays. -/
theorem flushed_k (c : Dev nD) (t : Fin cfg0.N) :
    (dat0 V c).flushed 8 t = ((cfg0.win 8).blk t).view.read (Elt Ideal) (Cert.Spec.affine (V c main_arg0) (V c main_v1) (V c main_arg4)) := by
  show (cfg0.win 8).cut (grid0.coords t) ((dat0 V c).after 8 t) = _
  rw [after0_8]
  unfold out0_8
  rw [View.canon_unit_zero zero2]
  simp only [View.ld_unit_zero (S := S512x1024) zero2, View.ld_unit_zero (S := S1024x1024) zero2, View.ld_unit_zero (S := S1024) zero1]
  funext j
  show k0_pay3 (F := Ideal) (iblk0 V c 0 t) (iblk0 V c 3 t) (iblk0 V c 4 t) j
    = Cert.Spec.affine (V c main_arg0) (V c main_v1) (V c main_arg4) (((cfg0.win 8).blk t).view.emb j)
  exact point_k V c t j

/-- An index of the array is in point t's block iff each coordinate is in the block's range on its axis. -/
theorem mem_blk_k (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v5_1).slice (win0_8.rect t)).set ↔ _
  rw [View.set_slice_whole, Rect.mem_set_unit]
  exact Iff.rfl

/-- Every row r of the array lies in the block of the point r / 512, which writes its block back. -/
theorem cover_k (i : S4096x1024.Idx) : ∃ t : Fin cfg0.N, (cfg0.win 8).flush t = true ∧ i ∈ ((cfg0.win 8).blk t).view.set := by
  have hN : grid0.N = 8 := N_0
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [hN]; omega⟩, rfl⟩
  obtain ⟨e0, e1⟩ := idx0_8 t
  refine ⟨t, flush0_8 t, ?_⟩
  rw [mem_blk_k]
  intro a
  match a with
  | ⟨0, _⟩ => show win0_8.index t (0 : Fin 2) * 512 ≤ (i 0).val ∧ (i 0).val < win0_8.index t (0 : Fin 2) * 512 + 512; rw [e0]; omega
  | ⟨1, _⟩ => show win0_8.index t (1 : Fin 2) * 1024 ≤ (i 1).val ∧ (i 1).val < win0_8.index t (1 : Fin 2) * 1024 + 1024; rw [e1]; omega

/-! ## The third projection (output window 9) -/

/-- What the body computes at entry j of the band's block is the affine map of the whole arrays at the array's
    entry that j is embedded at: the body is the affine map of the band (the dense body at an entry), the weights'
    and the bias's blocks are the whole arrays, and the affine map reads one row of its left operand. -/
theorem point_v (c : Dev nD) (t : Fin cfg0.N) (j : S512x1024.Idx) :
    k0_pay4 (F := Ideal) (iblk0 V c 0 t) (iblk0 V c 5 t) (iblk0 V c 6 t) j
      = Cert.Spec.affine (V c main_arg0) (V c main_v2) (V c main_arg6) (((cfg0.win 9).blk t).view.emb j) := by
  obtain ⟨p, q, rfl⟩ : ∃ (p : Fin 512) (q : Fin 1024), j = ix2 p q := ⟨j 0, j 1, eq_ix2 j⟩
  obtain ⟨e0, e1⟩ := idx0_9 t
  have hN : grid0.N = 8 := N_0
  have ht : t.val < grid0.N := t.isLt
  have hp : p.val < 512 := p.isLt
  have hr : 512 * t.val + p.val < 4096 := by omega
  have hemb : ((cfg0.win 9).blk t).view.emb (ix2 p q) = (ix2 (⟨512 * t.val + p.val, hr⟩ : Fin 4096) q : S4096x1024.Idx) := by
    funext a
    apply Fin.ext
    match a with
    | ⟨0, _⟩ => show win0_9.index t (0 : Fin 2) * 512 + 1 * p.val = 512 * t.val + p.val; rw [e0]; omega
    | ⟨1, _⟩ => show win0_9.index t (1 : Fin 2) * 1024 + 1 * q.val = q.val; rw [e1]; omega
  rw [hemb]
  refine (Cert.DenseBody.proj_v_apply (iblk0 V c 0 t) (iblk0 V c 5 t) (iblk0 V c 6 t) p q).trans ?_
  refine (congrArg₂ (fun (w : Vec Ideal S1024x1024 .bf16) (b : Vec Ideal S1024 .f32) =>
      Cert.Spec.affineAt (iblk0 V c 0 t : Vec Ideal S512x1024 .f32) w b p q) (blk0_5_eq V c t) (blk0_6_eq V c t)).trans ?_
  exact Cert.Spec.affineAt_band (iblk0 V c 0 t : Vec Ideal S512x1024 .f32) (V c main_arg0) (V c main_v2) (V c main_arg6) p
    ⟨512 * t.val + p.val, hr⟩ q (fun k => blk0_0_apply V c t p k ⟨512 * t.val + p.val, hr⟩ rfl)

/-- What point t writes back is block t of the affine map of the whole arrays. -/
theorem flushed_v (c : Dev nD) (t : Fin cfg0.N) :
    (dat0 V c).flushed 9 t = ((cfg0.win 9).blk t).view.read (Elt Ideal) (Cert.Spec.affine (V c main_arg0) (V c main_v2) (V c main_arg6)) := by
  show (cfg0.win 9).cut (grid0.coords t) ((dat0 V c).after 9 t) = _
  rw [after0_9]
  unfold out0_9
  rw [View.canon_unit_zero zero2]
  simp only [View.ld_unit_zero (S := S512x1024) zero2, View.ld_unit_zero (S := S1024x1024) zero2, View.ld_unit_zero (S := S1024) zero1]
  funext j
  show k0_pay4 (F := Ideal) (iblk0 V c 0 t) (iblk0 V c 5 t) (iblk0 V c 6 t) j
    = Cert.Spec.affine (V c main_arg0) (V c main_v2) (V c main_arg6) (((cfg0.win 9).blk t).view.emb j)
  exact point_v V c t j

/-- An index of the array is in point t's block iff each coordinate is in the block's range on its axis. -/
theorem mem_blk_v (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v5_2).slice (win0_9.rect t)).set ↔ _
  rw [View.set_slice_whole, Rect.mem_set_unit]
  exact Iff.rfl

/-- Every row r of the array lies in the block of the point r / 512, which writes its block back. -/
theorem cover_v (i : S4096x1024.Idx) : ∃ t : Fin cfg0.N, (cfg0.win 9).flush t = true ∧ i ∈ ((cfg0.win 9).blk t).view.set := by
  have hN : grid0.N = 8 := N_0
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [hN]; omega⟩, rfl⟩
  obtain ⟨e0, e1⟩ := idx0_9 t
  refine ⟨t, flush0_9 t, ?_⟩
  rw [mem_blk_v]
  intro a
  match a with
  | ⟨0, _⟩ => show win0_9.index t (0 : Fin 2) * 512 ≤ (i 0).val ∧ (i 0).val < win0_9.index t (0 : Fin 2) * 512 + 512; rw [e0]; omega
  | ⟨1, _⟩ => show win0_9.index t (1 : Fin 2) * 1024 ≤ (i 1).val ∧ (i 1).val < win0_9.index t (1 : Fin 2) * 1024 + 1024; rw [e1]; omega

/-! ## The three result arrays after the run -/

theorem q_final (c : Dev nD) : (dat0 V c).arrAt 7 cfg0.N = Cert.Spec.affine (V c main_arg0) (V c main_v0) (V c main_arg2) :=
  (dat0 V c).arrAt_eq_of_cover 7 (Cert.Spec.affine (V c main_arg0) (V c main_v0) (V c main_arg2)) (fun t _ => flushed_q V c t) cover_q

theorem k_final (c : Dev nD) : (dat0 V c).arrAt 8 cfg0.N = Cert.Spec.affine (V c main_arg0) (V c main_v1) (V c main_arg4) :=
  (dat0 V c).arrAt_eq_of_cover 8 (Cert.Spec.affine (V c main_arg0) (V c main_v1) (V c main_arg4)) (fun t _ => flushed_k V c t) cover_k

theorem v_final (c : Dev nD) : (dat0 V c).arrAt 9 cfg0.N = Cert.Spec.affine (V c main_arg0) (V c main_v2) (V c main_arg6) :=
  (dat0 V c).arrAt_eq_of_cover 9 (Cert.Spec.affine (V c main_arg0) (V c main_v2) (V c main_arg6)) (fun t _ => flushed_v V c t) cover_v

end Cert.KernelIdeal.ProjValue

end
-- ==== Proof.AttnBody.lean ====
/-
  The attention body at an index.

  For one band of 128 query rows (band `i` of 32, whose first row in the sequence is `128 · i`) against all 4096 keys,
  the two arrays the attention step computes are read entry by entry:
    • the weights: entry (p, c) is the row softmax of the masked scores, where the score of query row p against key c is
      (Σ_d q(p,d)·k(c,d)) · 2⁻⁵ for c ≤ 128·i + p and the stand-in −10⁹ for the keys after the query;
    • the first residual: entry (p, c) is x(p,c) + Σ_j a(p,j)·v(j,c) with a the weights.
  The steps, each read at an index given by its coordinates:
    1. a row's number kept as a one-entry column [a] → [a,1], and that column spread along the row [a,1] → [a,b];
    2. the two contractions into a zero accumulator as finite sums over the one contracted coordinate (queries against
       keys: both second axes; weights against values: second axis against first);
    3. the causal comparison: the words involved are naturals below 2¹³, so the signed comparison of 32-bit words is the
       comparison of naturals;
    4. the lane maximum of a row as the fold of `max` from −∞ over the row, and the lane sum as the sum over the row;
    5. the softmax of any score array whose row is known, from 1 and 4;
    6. the two results, from 2, 3 and 5.
  Every sum is a sum over a `Fin`, and the float words stay as printed: the same word stands on both sides.
-/
import proofs.«144866_j23407571763374_1_alg».proof.Proof.Gen.KernelIdeal.Skeleton
import proofs.«144866_j23407571763374_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.AttnBody

open Idealize.ShloMosaic Idealize.ShloMosaic.ValueIdx Cert.KernelIdeal Cert.KernelIdeal.Gen
open scoped BigOperators

/-! ## A row's number kept as a column, and the column spread along the row -/

section Column
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two contractions read at an index -/

/-- The scores' contraction pairs both operands' second axes: the left index at `(j, q)` is `(j 0, q)` … -/
theorem scores_lhs_0 (j : S128x4096.Idx) (q : dot_S128x1024_S4096x1024_S128x4096_1_1_0_0_n_n.contr.Idx) :
    (dot_S128x1024_S4096x1024_S128x4096_1_1_0_0_n_n.lhsIdx j q 0).val = (j 0).val := by
  unfold DotDims.lhsIdx
  rw [dif_neg (show ¬(0 : Fin S128x1024.rank) ∈ dot_S128x1024_S4096x1024_S128x4096_1_1_0_0_n_n.lhsBatch by decide), dif_pos (show (0 : Fin S128x1024.rank) ∈ dot_S128x1024_S4096x1024_S128x4096_1_1_0_0_n_n.lhsNonContracting by decide)]
  rfl
theorem scores_lhs_1 (j : S128x4096.Idx) (q : dot_S128x1024_S4096x1024_S128x4096_1_1_0_0_n_n.contr.Idx) :
    (dot_S128x1024_S4096x1024_S128x4096_1_1_0_0_n_n.lhsIdx j q 1).val = (q ⟨0, by decide⟩).val :=
  dot_S128x1024_S4096x1024_S128x4096_1_1_0_0_n_n.lhsIdx_val_of_single rfl j q
/-- … and the right index is `(j 1, q)`. -/
theorem scores_rhs_0 (j : S128x4096.Idx) (q : dot_S128x1024_S4096x1024_S128x4096_1_1_0_0_n_n.contr.Idx) :
    (dot_S128x1024_S4096x1024_S128x4096_1_1_0_0_n_n.rhsIdx j q 0).val = (j 1).val := by
  unfold DotDims.rhsIdx
  rw [dif_neg (show ¬(0 : Fin S4096x1024.rank) ∈ dot_S128x1024_S4096x1024_S128x4096_1_1_0_0_n_n.rhsBatch by decide), dif_pos (show (0 : Fin S4096x1024.rank) ∈ dot_S128x1024_S4096x1024_S128x4096_1_1_0_0_n_n.rhsNonContracting by decide)]
  rfl
theorem scores_rhs_1 (j : S128x4096.Idx) (q : dot_S128x1024_S4096x1024_S128x4096_1_1_0_0_n_n.contr.Idx) :
    (dot_S128x1024_S4096x1024_S128x4096_1_1_0_0_n_n.rhsIdx j q 1).val = (q ⟨0, by decide⟩).val :=
  dot_S128x1024_S4096x1024_S128x4096_1_1_0_0_n_n.rhsIdx_val_of_single rfl j q

/-- Entry `(p, c)` of the scores' contraction into the zero accumulator: the row `p` of the queries against the
    row `c` of the keys. -/
theorem scores_apply (q : FVec Ideal S128x1024 .bf16) (k : FVec Ideal S4096x1024 .bf16) (p : Fin 128) (c : Fin 4096) :
    matmul dot_S128x1024_S4096x1024_S128x4096_1_1_0_0_n_n none q k (constant (F := Ideal) S128x4096 .f32 0x00000000#32) (ix2 p c)
      = ∑ d : Fin 1024, q (ix2 p d) * k (ix2 c d) := by
  simp only [matmul]
  rw [Ideal.matmul_constant_zero_apply, ← Equiv.sum_comp (contrEquiv1 dot_S128x1024_S4096x1024_S128x4096_1_1_0_0_n_n 1024 rfl rfl).symm]
  refine Finset.sum_congr rfl fun d _ => ?_
  have hd := contrEquiv1_symm_val dot_S128x1024_S4096x1024_S128x4096_1_1_0_0_n_n 1024 rfl rfl d
  have el : dot_S128x1024_S4096x1024_S128x4096_1_1_0_0_n_n.lhsIdx (ix2 p c) ((contrEquiv1 dot_S128x1024_S4096x1024_S128x4096_1_1_0_0_n_n 1024 rfl rfl).symm d) = ix2 p d := funext fun a => Fin.ext (by
    match a with
    | ⟨0, _⟩ => exact scores_lhs_0 _ _
    | ⟨1, _⟩ => exact (scores_lhs_1 _ _).trans hd)
  have er : dot_S128x1024_S4096x1024_S128x4096_1_1_0_0_n_n.rhsIdx (ix2 p c) ((contrEquiv1 dot_S128x1024_S4096x1024_S128x4096_1_1_0_0_n_n 1024 rfl rfl).symm d) = ix2 c d := funext fun a => Fin.ext (by
    match a with
    | ⟨0, _⟩ => exact scores_rhs_0 _ _
    | ⟨1, _⟩ => exact (scores_rhs_1 _ _).trans hd)
  rw [el, er]

/-- The weights-times-values contraction pairs the left operand's second axis with the right operand's first: the
    left index at `(j, q)` is `(j 0, q)` … -/
theorem weighted_lhs_0 (j : S128x1024.Idx) (q : dot_S128x4096_S4096x1024_S128x1024_1_0_0_1_n_n.contr.Idx) :
    (dot_S128x4096_S4096x1024_S128x1024_1_0_0_1_n_n.lhsIdx j q 0).val = (j 0).val := by
  unfold DotDims.lhsIdx
  rw [dif_neg (show ¬(0 : Fin S128x4096.rank) ∈ dot_S128x4096_S4096x1024_S128x1024_1_0_0_1_n_n.lhsBatch by decide), dif_pos (show (0 : Fin S128x4096.rank) ∈ dot_S128x4096_S4096x1024_S128x1024_1_0_0_1_n_n.lhsNonContracting by decide)]
  rfl
theorem weighted_lhs_1 (j : S128x1024.Idx) (q : dot_S128x4096_S4096x1024_S128x1024_1_0_0_1_n_n.contr.Idx) :
    (dot_S128x4096_S4096x1024_S128x1024_1_0_0_1_n_n.lhsIdx j q 1).val = (q ⟨0, by decide⟩).val :=
  dot_S128x4096_S4096x1024_S128x1024_1_0_0_1_n_n.lhsIdx_val_of_single rfl j q
/-- … and the right index is `(q, j 1)`. -/
theorem weighted_rhs_0 (j : S128x1024.Idx) (q : dot_S128x4096_S4096x1024_S128x1024_1_0_0_1_n_n.contr.Idx) :
    (dot_S128x4096_S4096x1024_S128x1024_1_0_0_1_n_n.rhsIdx j q 0).val = (q ⟨0, by decide⟩).val :=
  dot_S128x4096_S4096x1024_S128x1024_1_0_0_1_n_n.rhsIdx_val_of_single rfl j q
theorem weighted_rhs_1 (j : S128x1024.Idx) (q : dot_S128x4096_S4096x1024_S128x1024_1_0_0_1_n_n.contr.Idx) :
    (dot_S128x4096_S4096x1024_S128x1024_1_0_0_1_n_n.rhsIdx j q 1).val = (j 1).val := by
  unfold DotDims.rhsIdx
  rw [dif_neg (show ¬(1 : Fin S4096x1024.rank) ∈ dot_S128x4096_S4096x1024_S128x1024_1_0_0_1_n_n.rhsBatch by decide), dif_pos (show (1 : Fin S4096x1024.rank) ∈ dot_S128x4096_S4096x1024_S128x1024_1_0_0_1_n_n.rhsNonContracting by decide)]
  rfl

/-- Entry `(p, c)` of the weights-times-values contraction into the zero accumulator: the row `p` of the weights
    against the column `c` of the values. -/
theorem weighted_apply (a : FVec Ideal S128x4096 .bf16) (v : FVec Ideal S4096x1024 .bf16) (p : Fin 128) (c : Fin 1024) :
    matmul dot_S128x4096_S4096x1024_S128x1024_1_0_0_1_n_n none a v (constant (F := Ideal) S128x1024 .f32 0x00000000#32) (ix2 p c)
      = ∑ j : Fin 4096, a (ix2 p j) * v (ix2 j c) := by
  simp only [matmul]
  rw [Ideal.matmul_constant_zero_apply, ← Equiv.sum_comp (contrEquiv1 dot_S128x4096_S4096x1024_S128x1024_1_0_0_1_n_n 4096 rfl rfl).symm]
  refine Finset.sum_congr rfl fun j _ => ?_
  have hj := contrEquiv1_symm_val dot_S128x4096_S4096x1024_S128x1024_1_0_0_1_n_n 4096 rfl rfl j
  have el : dot_S128x4096_S4096x1024_S128x1024_1_0_0_1_n_n.lhsIdx (ix2 p c) ((contrEquiv1 dot_S128x4096_S4096x1024_S128x1024_1_0_0_1_n_n 4096 rfl rfl).symm j) = ix2 p j := funext fun b => Fin.ext (by
    match b with
    | ⟨0, _⟩ => exact weighted_lhs_0 _ _
    | ⟨1, _⟩ => exact (weighted_lhs_1 _ _).trans hj)
  have er : dot_S128x4096_S4096x1024_S128x1024_1_0_0_1_n_n.rhsIdx (ix2 p c) ((contrEquiv1 dot_S128x4096_S4096x1024_S128x1024_1_0_0_1_n_n 4096 rfl rfl).symm j) = ix2 j c := funext fun b => Fin.ext (by
    match b with
    | ⟨0, _⟩ => exact (weighted_rhs_0 _ _).trans hj
    | ⟨1, _⟩ => exact weighted_rhs_1 _ _)
  rw [el, er]

/-! ## The causal mask on words -/

/-- The causal comparison on words: with the band's number below 32, the row below 128 and the column below 4096
    every word is a small natural, so the signed comparison is the comparison of naturals. -/
theorem causal_bit (g p c : Nat) (hg : g < 32) (hp : p < 128) (hc : c < 4096) :
    IntOp.cmpi .sgt (BitVec.ofNat 32 c) (IntOp.addi (Scalar.muli (BitVec.ofNat 32 g) 128#32) (BitVec.ofNat 32 p)) = 1#1
      ↔ g * 128 + p < c := by
  have e : IntOp.addi (Scalar.muli (BitVec.ofNat 32 g) 128#32) (BitVec.ofNat 32 p) = BitVec.ofNat 32 (g * 128 + p) := by
    show BitVec.ofNat 32 g * BitVec.ofNat 32 128 + BitVec.ofNat 32 p = _
    rw [← BitVec.ofNat_mul, ← BitVec.ofNat_add]
  rw [e]
  show BitVec.ofBool ((BitVec.ofNat 32 (g * 128 + p)).slt (BitVec.ofNat 32 c)) = 1#1 ↔ _
  have h1 : (BitVec.ofNat 32 (g * 128 + p)).toInt = ((g * 128 + p : Nat) : Int) := by
    rw [BitVec.toInt_eq_toNat_of_lt (by rw [BitVec.toNat_ofNat]; omega), BitVec.toNat_ofNat]
    congr 1; omega
  have h2 : (BitVec.ofNat 32 c).toInt = ((c : Nat) : Int) := by
    rw [BitVec.toInt_eq_toNat_of_lt (by rw [BitVec.toNat_ofNat]; omega), BitVec.toNat_ofNat]
    congr 1; omega
  rw [BitVec.slt, h1, h2]
  by_cases h : g * 128 + p < c
  · have h' : ((g * 128 + p : Nat) : Int) < ((c : Nat) : Int) := by omega
    rw [decide_eq_true h']
    exact ⟨fun _ => h, fun _ => rfl⟩
  · have h' : ¬ ((g * 128 + p : Nat) : Int) < ((c : Nat) : Int) := by omega
    rw [decide_eq_false h']
    exact ⟨fun hh => absurd hh (by decide), fun hh => absurd hh h⟩

/-- The mask read at an index: the column's number against the band's first row plus the row's number, so the
    select takes its first operand exactly at the keys after the query. -/
theorem mask_apply {α : Type} (g : Nat) (hg : g < 32) (h0 : S128x4096.Iotas .tc 32 [0]) (h1 : S128x4096.Iotas .tc 32 [1])
    (A B : S128x4096.Idx → α) (p : Fin 128) (c : Fin 4096) :
    select (cmpi .sgt (iota .tc S128x4096 32 [1] h1)
        (addi (broadcast S128x4096 (Scalar.muli (BitVec.ofNat 32 g) 128#32)) (iota .tc S128x4096 32 [0] h0))) A B (ix2 p c)
      = if g * 128 + p.val < c.val then A (ix2 p c) else B (ix2 p c) := by
  rw [select_apply]
  show Scalar.select (IntOp.cmpi .sgt (iota .tc S128x4096 32 [1] h1 (ix2 p c))
      (IntOp.addi (Scalar.muli (BitVec.ofNat 32 g) 128#32) (iota .tc S128x4096 32 [0] h0 (ix2 p c)))) _ _ = _
  rw [iota_single_apply, iota_single_apply]
  exact if_congr (causal_bit g p.val c.val hg p.isLt c.isLt) rfl rfl

/-! ## The two lane reductions read at a row -/

/-- The index a lane reduction puts back: row `p` with the lane `k` inserted. -/
theorem lift_row (h : S128x4096.Reduces [1] S128) (p : Fin 128) (k : Fin 4096) : h.lift (ix1 p) k = ix2 p k :=
  funext fun a => Fin.ext (by match a with | ⟨0, _⟩ => rfl | ⟨1, _⟩ => rfl)

/-- The lane maximum of row `p`: the fold of `max` from the accumulator's word over the row's entries. -/
theorem laneMax_apply (src : FVec Ideal S128x4096 .f32) (h : S128x4096.Reduces [1] S128) (hφ : FKind.Formats .f32)
    (hacc : (0xFF800000#32 : BitVec 32) = FKind.maximumf.neutral .f32 hφ) (p : Fin 128) :
    multiReduction .maximumf [1] S128 src 0xFF800000#32 h hφ hacc (ix1 p)
      = (Finset.univ : Finset (Fin 4096)).fold max (Ideal.ofBits .f32 0xFF800000#32) (fun c => src (ix2 p c)) :=
  (Ideal.multiReduction_maximumf_single src _ h hφ hacc (ix1 p)).trans
    (Finset.fold_congr fun k _ => congrArg src (lift_row h p k))

/-- The lane sum of row `p`: the sum of the row's entries. -/
theorem laneSum_apply (src : FVec Ideal S128x4096 .f32) (h : S128x4096.Reduces [1] S128) (hφ : FKind.Formats .f32)
    (hacc : (0x00000000#32 : BitVec 32) = FKind.add.neutral .f32 hφ) (p : Fin 128) :
    multiReduction .add [1] S128 src 0x00000000#32 h hφ hacc (ix1 p) = ∑ c : Fin 4096, src (ix2 p c) :=
  (Ideal.multiReduction_add_single src _ h hφ hacc (ix1 p)).trans
    (Finset.sum_congr rfl fun k _ => congrArg src (lift_row h p k))

/-! ## The row softmax read at an index

For any array `s` of scores whose row `p` is the function `m` of the column: the shifted exponential and the
quotient by the row's sum, with the two layout steps (a row's number kept as a one-entry column, then spread along
the row) read through. -/

/-- The shifted exponential at `(p, c)`. -/
theorem shifted_apply (s : FVec Ideal S128x4096 .f32) (m : Fin 4096 → EReal) (p : Fin 128) (hs : ∀ c, s (ix2 p c) = m c)
    (hr : S128x4096.Reduces [1] S128) (hφ : FKind.Formats .f32)
    (hmx : (0xFF800000#32 : BitVec 32) = FKind.maximumf.neutral .f32 hφ)
    (hc : S128.ShapeCasts S128x1) (hb : S128x1.Broadcasts S128x4096) (c : Fin 4096) :
    exp (subf s (broadcastTo S128x4096 (shapeCast S128x1 (multiReduction .maximumf [1] S128 s 0xFF800000#32 hr hφ hmx) hc) hb)) (ix2 p c)
      = Ideal.exp (m c - (Finset.univ : Finset (Fin 4096)).fold max (Ideal.ofBits .f32 0xFF800000#32) m) := by
  show Ideal.exp (s (ix2 p c)
      - broadcastTo S128x4096 (shapeCast S128x1 (multiReduction .maximumf [1] S128 s 0xFF800000#32 hr hφ hmx) hc) hb (ix2 p c)) = _
  rw [broadcastTo_a1_ab_apply, shapeCast_a_a1_apply, hs c]
  refine congrArg (fun z => Ideal.exp (m c - z)) ?_
  refine (laneMax_apply s hr hφ hmx p).trans ?_
  exact Finset.fold_congr fun c' _ => hs c'

/-- The softmax weight at `(p, c)`. -/
theorem softmax_apply (s : FVec Ideal S128x4096 .f32) (m : Fin 4096 → EReal) (p : Fin 128) (hs : ∀ c, s (ix2 p c) = m c)
    (hr : S128x4096.Reduces [1] S128) (hφ : FKind.Formats .f32)
    (hmx : (0xFF800000#32 : BitVec 32) = FKind.maximumf.neutral .f32 hφ)
    (hsm : (0x00000000#32 : BitVec 32) = FKind.add.neutral .f32 hφ)
    (hc : S128.ShapeCasts S128x1) (hb : S128x1.Broadcasts S128x4096) (c : Fin 4096) :
    divf (exp (subf s (broadcastTo S128x4096 (shapeCast S128x1 (multiReduction .maximumf [1] S128 s 0xFF800000#32 hr hφ hmx) hc) hb)))
        (broadcastTo S128x4096 (shapeCast S128x1 (multiReduction .add [1] S128
          (exp (subf s (broadcastTo S128x4096 (shapeCast S128x1 (multiReduction .maximumf [1] S128 s 0xFF800000#32 hr hφ hmx) hc) hb)))
          0x00000000#32 hr hφ hsm) hc) hb) (ix2 p c)
      = Ideal.div (Ideal.exp (m c - (Finset.univ : Finset (Fin 4096)).fold max (Ideal.ofBits .f32 0xFF800000#32) m))
          (∑ c' : Fin 4096, Ideal.exp (m c' - (Finset.univ : Finset (Fin 4096)).fold max (Ideal.ofBits .f32 0xFF800000#32) m)) := by
  show Ideal.div
      (exp (subf s (broadcastTo S128x4096 (shapeCast S128x1 (multiReduction .maximumf [1] S128 s 0xFF800000#32 hr hφ hmx) hc) hb)) (ix2 p c))
      (broadcastTo S128x4096 (shapeCast S128x1 (multiReduction .add [1] S128
          (exp (subf s (broadcastTo S128x4096 (shapeCast S128x1 (multiReduction .maximumf [1] S128 s 0xFF800000#32 hr hφ hmx) hc) hb)))
          0x00000000#32 hr hφ hsm) hc) hb (ix2 p c)) = _
  rw [broadcastTo_a1_ab_apply, shapeCast_a_a1_apply, shifted_apply s m p hs hr hφ hmx hc hb c]
  refine congrArg (Ideal.div _) ?_
  refine (laneSum_apply _ hr hφ hsm p).trans ?_
  exact Finset.sum_congr rfl fun c' _ => shifted_apply s m p hs hr hφ hmx hc hb c'

/-! ## The kernel's two payloads at an index -/

/-- The attention weights the kernel stores for band `i`, at row `p` of the band and key `c`: the row softmax of the
    scaled, causally masked scores, the band's first row being `128 · i`. -/
theorem weights_apply (i : grid1.Coords) (qb : Vec Ideal S128x1024 .bf16) (kk : Vec Ideal S4096x1024 .bf16) (p : Fin 128) (c : Fin 4096) :
    k1_pay1 (F := Ideal) i qb kk (ix2 p c) = Cert.Spec.attnAt ((i 0).val * 128) qb kk p c := by
  unfold k1_pay1
  refine (softmax_apply _ (fun c' => Cert.Spec.maskedAt ((i 0).val * 128) qb kk p c') p ?_ _ _ _ _ _ _ c).trans rfl
  intro c'
  refine (mask_apply (i 0).val (i 0).isLt _ _ _ _ p c').trans ?_
  unfold Cert.Spec.maskedAt Cert.Spec.scoreAt
  refine if_congr Iff.rfl rfl ?_
  refine congrArg (· * Cert.Spec.scaleW) ?_
  refine (scores_apply _ _ p c').trans ?_
  rw [shapeCast_self, shapeCast_self]

/-- The first residual the kernel stores for band `i`: the band of `x` plus the band's weights times the values. -/
theorem mixed_apply (i : grid1.Coords) (qb : Vec Ideal S128x1024 .bf16) (kk vv : Vec Ideal S4096x1024 .bf16) (xb : Vec Ideal S128x1024 .f32) (p : Fin 128) (c : Fin 1024) :
    k1_pay2 (F := Ideal) i qb kk vv xb (ix2 p c) = Cert.Spec.mixAt xb (Cert.Spec.attn ((i 0).val * 128) qb kk) vv p c := by
  unfold k1_pay2
  refine (addf_apply _ _ _).trans ?_
  unfold Cert.Spec.mixAt
  refine congrArg (xb (ix2 p c) + ·) ?_
  refine (weighted_apply _ _ p c).trans ?_
  refine Finset.sum_congr rfl fun j _ => ?_
  rw [shapeCast_self]
  exact congrArg (· * vv (ix2 j c)) (weights_apply i qb kk p j)

end Cert.AttnBody

end
-- ==== Proof.AttnValue.lean ====
/-
  From the bands to the arrays: the attention step's two results over the whole sequence.

  The attention step works band by band: band `t` of 32 takes rows `128·t … 128·t + 127` of `x` and of the queries, all
  of the keys and of the values, and writes rows `128·t … 128·t + 127` of the weights and of the first residual.
    1. Where each band sits (decided once over the 32 bands): the row-banded arrays' block at band `t` is block `(t, 0)`,
       the keys' and the values' block is the whole array, and the band's number as the body receives it is `t`.
    2. So a band of `x` or of the queries, read at `(p, d)`, is the array at `(128·t + p, d)`, and the keys' and the
       values' blocks are the arrays.
    3. At one entry: the band's weights at `(p, c)` are the whole sequence's weights at `(128·t + p, c)` — the masked score
       depends on the query's place `128·t + p` in the sequence and on its own row of the queries only — and the same for
       the first residual, which reads its own row of `x` and of the weights.
    4. So what band `t` writes back is block `t` of the whole-sequence function, and the 32 blocks cover the rows
       (row `r` lies in band `r / 128`): each array ends holding that function.
-/
import proofs.«144866_j23407571763374_1_alg».proof.Proof.FrameKernelIdeal
import proofs.«144866_j23407571763374_1_alg».proof.Proof.SpecBands
import proofs.«144866_j23407571763374_1_alg».proof.Proof.AttnBody
import Idealize.ShloMosaic.Lib.Pipeline.Value
import Idealize.ShloMosaic.Lib.ValueIdx

noncomputable section

namespace Cert.KernelIdeal.AttnValue

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-! ## Where each band sits -/

theorem zero_offsets : (![0, 0] : Fin 2 → Nat) = fun _ => 0 := funext fun a => by fin_cases a <;> rfl

/-- The index maps, decided over the 32 bands: the row-banded arrays (`x`, the queries, the weights, the first
    residual) are at block `(t, 0)`, the keys and the values at block `(0, 0)`, and the band's number is `t`. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ ((grid1.coords t) 0).val = t.val :=
  (by decide +kernel : ∀ t : Fin grid1.N, _)

/-! ## The input blocks as rows of the arrays -/

/-- The band of `x` at band `t`, at `(p, d)`, is `x` at row `128·t + p`. -/
theorem xBand_apply (c : Dev nD) (t : Fin cfg1.N) (p : Fin 128) (d : Fin 1024) (r : Fin 4096) (hr : r.val = 128 * t.val + p.val) :
    (iblk1 V c 0 t : Vec Ideal S128x1024 .f32) (ix2 p d) = (V c main_arg0 : S4096x1024.Idx → Elt Ideal .f32) (ix2 r d) := by
  obtain ⟨h00, h01, h10, h11, h20, h21, h30, h31, h40, h41, h50, h51, hco⟩ := index_facts t
  unfold iblk1
  rw [View.read_apply]
  show V c main_arg0 _ = V c main_arg0 _
  congr 1
  funext a
  apply Fin.ext
  match a with
  | ⟨0, _⟩ => show win1_0.index t (0 : Fin 2) * 128 + 1 * p.val = r.val; rw [h00, hr]; omega
  | ⟨1, _⟩ => show win1_0.index t (1 : Fin 2) * 1024 + 1 * d.val = d.val; rw [h01]; omega

/-- The band of the queries at band `t`, at `(p, d)`, is the queries at row `128·t + p`. -/
theorem qBand_apply (c : Dev nD) (t : Fin cfg1.N) (p : Fin 128) (d : Fin 1024) (r : Fin 4096) (hr : r.val = 128 * t.val + p.val) :
    (iblk1 V c 1 t : Vec Ideal S128x1024 .bf16) (ix2 p d) = (V c main_v5_0 : S4096x1024.Idx → Elt Ideal .bf16) (ix2 r d) := by
  obtain ⟨h00, h01, h10, h11, h20, h21, h30, h31, h40, h41, h50, h51, hco⟩ := index_facts t
  unfold iblk1
  rw [View.read_apply]
  show V c main_v5_0 _ = V c main_v5_0 _
  congr 1
  funext a
  apply Fin.ext
  match a with
  | ⟨0, _⟩ => show win1_1.index t (0 : Fin 2) * 128 + 1 * p.val = r.val; rw [h10, hr]; omega
  | ⟨1, _⟩ => show win1_1.index t (1 : Fin 2) * 1024 + 1 * d.val = d.val; rw [h11]; omega

/-- The keys' block is the whole array of the keys, at every band. -/
theorem keys_whole (c : Dev nD) (t : Fin cfg1.N) :
    (iblk1 V c 2 t : Vec Ideal S4096x1024 .bf16) = (V c main_v5_1 : S4096x1024.Idx → Elt Ideal .bf16) := by
  obtain ⟨h00, h01, h10, h11, h20, h21, h30, h31, h40, h41, h50, h51, hco⟩ := index_facts t
  funext x
  unfold iblk1
  rw [View.read_apply]
  show V c main_v5_1 _ = V c main_v5_1 x
  congr 1
  funext a
  apply Fin.ext
  match a with
  | ⟨0, _⟩ => show win1_2.index t (0 : Fin 2) * 4096 + 1 * (x 0).val = (x 0).val; rw [h20]; omega
  | ⟨1, _⟩ => show win1_2.index t (1 : Fin 2) * 1024 + 1 * (x 1).val = (x 1).val; rw [h21]; omega

/-- The values' block is the whole array of the values, at every band. -/
theorem values_whole (c : Dev nD) (t : Fin cfg1.N) :
    (iblk1 V c 3 t : Vec Ideal S4096x1024 .bf16) = (V c main_v5_2 : S4096x1024.Idx → Elt Ideal .bf16) := by
  obtain ⟨h00, h01, h10, h11, h20, h21, h30, h31, h40, h41, h50, h51, hco⟩ := index_facts t
  funext x
  unfold iblk1
  rw [View.read_apply]
  show V c main_v5_2 _ = V c main_v5_2 x
  congr 1
  funext a
  apply Fin.ext
  match a with
  | ⟨0, _⟩ => show win1_3.index t (0 : Fin 2) * 4096 + 1 * (x 0).val = (x 0).val; rw [h30]; omega
  | ⟨1, _⟩ => show win1_3.index t (1 : Fin 2) * 1024 + 1 * (x 1).val = (x 1).val; rw [h31]; omega

/-! ## One entry of a band is the entry of the whole sequence -/

/-- The weights band `tv` computes, at row `p` of the band and key `cc`, are the whole sequence's weights at row
    `r = 128·tv + p`: the query's place in the sequence is the same number, and its row of the queries the same row. -/
theorem weights_point (i : grid1.Coords) (tv : Nat) (hi : (i 0).val = tv)
    (qb : Vec Ideal S128x1024 .bf16) (kb : Vec Ideal S4096x1024 .bf16) (q k : Vec Ideal S4096x1024 .bf16) (hk : kb = k)
    (p : Fin 128) (r : Fin 4096) (hr : r.val = 128 * tv + p.val)
    (hq : ∀ d : Fin 1024, qb (ix2 p d) = q (ix2 r d)) (cc : Fin 4096) :
    k1_pay1 (F := Ideal) i qb kb (ix2 p cc) = Cert.Spec.attn 0 q k (ix2 r cc) := by
  subst hk
  refine (Cert.AttnBody.weights_apply i qb kb p cc).trans ?_
  show Cert.Spec.attnAt ((i 0).val * 128) qb kb p cc = Cert.Spec.attnAt 0 q kb r cc
  exact Cert.Spec.attnAt_band ((i 0).val * 128) 0 qb q kb p r cc (by omega) hq

/-- The first residual band `tv` computes, at row `p` of the band, is the whole sequence's at row `r = 128·tv + p`:
    it reads its own row of `x` and its own row of the weights. -/
theorem mixed_point (i : grid1.Coords) (tv : Nat) (hi : (i 0).val = tv)
    (xb : Vec Ideal S128x1024 .f32) (x : Vec Ideal S4096x1024 .f32)
    (qb : Vec Ideal S128x1024 .bf16) (kb vb : Vec Ideal S4096x1024 .bf16) (q k v : Vec Ideal S4096x1024 .bf16)
    (hk : kb = k) (hv : vb = v)
    (p : Fin 128) (r : Fin 4096) (hr : r.val = 128 * tv + p.val)
    (hx : ∀ d : Fin 1024, xb (ix2 p d) = x (ix2 r d))
    (hq : ∀ d : Fin 1024, qb (ix2 p d) = q (ix2 r d)) (cc : Fin 1024) :
    k1_pay2 (F := Ideal) i qb kb vb xb (ix2 p cc) = Cert.Spec.mix x (Cert.Spec.attn 0 q k) v (ix2 r cc) := by
  subst hk
  subst hv
  refine (Cert.AttnBody.mixed_apply i qb kb vb xb p cc).trans ?_
  show Cert.Spec.mixAt xb (Cert.Spec.attn ((i 0).val * 128) qb kb) vb p cc = Cert.Spec.mixAt x (Cert.Spec.attn 0 q kb) vb r cc
  refine Cert.Spec.mixAt_band xb x (Cert.Spec.attn ((i 0).val * 128) qb kb) (Cert.Spec.attn 0 q kb) vb p r cc (hx cc) fun j => ?_
  show Cert.Spec.attnAt ((i 0).val * 128) qb kb p j = Cert.Spec.attnAt 0 q kb r j
  exact Cert.Spec.attnAt_band ((i 0).val * 128) 0 qb q kb p r j (by omega) hq

/-! ## The weights over the whole sequence -/

/-- What band `t` writes back to the weights is block `t` of the whole sequence's weights. -/
theorem weights_written (c : Dev nD) (t : Fin cfg1.N) :
    (dat1 V c).flushed 4 t
      = ((cfg1.win 4).blk t).view.read (Elt Ideal) (Cert.Spec.attn 0 (V c main_v5_0) (V c main_v5_1)) := by
  show (cfg1.win 4).cut (grid1.coords t) ((dat1 V c).after 4 t) = _
  rw [after1_4]
  unfold out1_4
  rw [View.canon_unit_zero zero_offsets]
  simp only [View.ld_unit_zero (S := S128x1024) zero_offsets, View.ld_unit_zero (S := S4096x1024) zero_offsets]
  obtain ⟨h00, h01, h10, h11, h20, h21, h30, h31, h40, h41, h50, h51, hco⟩ := index_facts t
  funext j
  have hj0 : (j 0).val < 128 := (j 0).isLt
  have hj1 : (j 1).val < 4096 := (j 1).isLt
  have ht : t.val < 32 := lt_of_lt_of_eq t.isLt N_1
  have el : (cfg1.win 4).xinj (grid1.coords t) j = ix2 (⟨(j 0).val, hj0⟩ : Fin 128) (⟨(j 1).val, hj1⟩ : Fin 4096) := by
    funext a; apply Fin.ext
    match a with
    | ⟨0, _⟩ => rfl
    | ⟨1, _⟩ => rfl
  have er : ((cfg1.win 4).blk t).view.emb j
      = ix2 (⟨128 * t.val + (j 0).val, by omega⟩ : Fin 4096) (⟨(j 1).val, hj1⟩ : Fin 4096) := by
    funext a; apply Fin.ext
    match a with
    | ⟨0, _⟩ => show win1_4.index t (0 : Fin 2) * 128 + 1 * (j 0).val = 128 * t.val + (j 0).val; rw [h40]; omega
    | ⟨1, _⟩ => show win1_4.index t (1 : Fin 2) * 4096 + 1 * (j 1).val = (j 1).val; rw [h41]; omega
  show k1_pay1 (F := Ideal) (grid1.coords t) (iblk1 V c 1 t) (iblk1 V c 2 t) ((cfg1.win 4).xinj (grid1.coords t) j)
      = Cert.Spec.attn 0 (V c main_v5_0) (V c main_v5_1) (((cfg1.win 4).blk t).view.emb j)
  rw [el, er]
  exact weights_point (grid1.coords t) t.val hco (iblk1 V c 1 t) (iblk1 V c 2 t) (V c main_v5_0) (V c main_v5_1)
    (keys_whole V c t) ⟨(j 0).val, hj0⟩ ⟨128 * t.val + (j 0).val, by omega⟩ rfl
    (fun d => qBand_apply V c t ⟨(j 0).val, hj0⟩ d ⟨128 * t.val + (j 0).val, by omega⟩ rfl) ⟨(j 1).val, hj1⟩

/-- An entry of the weights is in band `t`'s block iff each coordinate is in the block's range. -/
theorem mem_weightsBlock (t : Fin cfg1.N) (i : S4096x4096.Idx) :
    i ∈ ((cfg1.win 4).blk t).view.set
      ↔ ∀ a : Fin 2, win1_4.index t a * S128x4096.size a ≤ (i a).val
          ∧ (i a).val < win1_4.index t a * S128x4096.size a + S128x4096.size a := by
  show i ∈ ((View.whole main_v6_0).slice (win1_4.rect t)).set ↔ _
  rw [View.set_slice_whole, Rect.mem_set_unit]
  exact Iff.rfl

/-- Every entry of the weights is in the block of the band its row lies in. -/
theorem weights_cover (i : S4096x4096.Idx) :
    ∃ t : Fin cfg1.N, (cfg1.win 4).flush t = true ∧ i ∈ ((cfg1.win 4).blk t).view.set := by
  have hi0 : (i 0).val < 4096 := (i 0).isLt
  have hi1 : (i 1).val < 4096 := (i 1).isLt
  have hN : cfg1.N = 32 := N_1
  obtain ⟨t, ht⟩ : ∃ t : Fin cfg1.N, t.val = (i 0).val / 128 := ⟨⟨(i 0).val / 128, by rw [hN]; omega⟩, rfl⟩
  obtain ⟨h00, h01, h10, h11, h20, h21, h30, h31, h40, h41, h50, h51, hco⟩ := index_facts t
  refine ⟨t, flush1_4 t, ?_⟩
  rw [mem_weightsBlock]
  intro a
  match a with
  | ⟨0, _⟩ =>
    show win1_4.index t (0 : Fin 2) * 128 ≤ (i 0).val ∧ (i 0).val < win1_4.index t (0 : Fin 2) * 128 + 128
    rw [h40, ht]; omega
  | ⟨1, _⟩ =>
    show win1_4.index t (1 : Fin 2) * 4096 ≤ (i 1).val ∧ (i 1).val < win1_4.index t (1 : Fin 2) * 4096 + 4096
    rw [h41]; omega

/-! ## The first residual over the whole sequence -/

/-- What band `t` writes back to the first residual is block `t` of the whole sequence's. -/
theorem mixed_written (c : Dev nD) (t : Fin cfg1.N) :
    (dat1 V c).flushed 5 t
      = ((cfg1.win 5).blk t).view.read (Elt Ideal)
          (Cert.Spec.mix (V c main_arg0) (Cert.Spec.attn 0 (V c main_v5_0) (V c main_v5_1)) (V c main_v5_2)) := by
  show (cfg1.win 5).cut (grid1.coords t) ((dat1 V c).after 5 t) = _
  rw [after1_5]
  unfold out1_5
  rw [View.canon_unit_zero zero_offsets]
  simp only [View.ld_unit_zero (S := S128x1024) zero_offsets, View.ld_unit_zero (S := S4096x1024) zero_offsets]
  obtain ⟨h00, h01, h10, h11, h20, h21, h30, h31, h40, h41, h50, h51, hco⟩ := index_facts t
  funext j
  have hj0 : (j 0).val < 128 := (j 0).isLt
  have hj1 : (j 1).val < 1024 := (j 1).isLt
  have ht : t.val < 32 := lt_of_lt_of_eq t.isLt N_1
  have el : (cfg1.win 5).xinj (grid1.coords t) j = ix2 (⟨(j 0).val, hj0⟩ : Fin 128) (⟨(j 1).val, hj1⟩ : Fin 1024) := by
    funext a; apply Fin.ext
    match a with
    | ⟨0, _⟩ => rfl
    | ⟨1, _⟩ => rfl
  have er : ((cfg1.win 5).blk t).view.emb j
      = ix2 (⟨128 * t.val + (j 0).val, by omega⟩ : Fin 4096) (⟨(j 1).val, hj1⟩ : Fin 1024) := by
    funext a; apply Fin.ext
    match a with
    | ⟨0, _⟩ => show win1_5.index t (0 : Fin 2) * 128 + 1 * (j 0).val = 128 * t.val + (j 0).val; rw [h50]; omega
    | ⟨1, _⟩ => show win1_5.index t (1 : Fin 2) * 1024 + 1 * (j 1).val = (j 1).val; rw [h51]; omega
  show k1_pay2 (F := Ideal) (grid1.coords t) (iblk1 V c 1 t) (iblk1 V c 2 t) (iblk1 V c 3 t) (iblk1 V c 0 t)
        ((cfg1.win 5).xinj (grid1.coords t) j)
      = Cert.Spec.mix (V c main_arg0) (Cert.Spec.attn 0 (V c main_v5_0) (V c main_v5_1)) (V c main_v5_2)
        (((cfg1.win 5).blk t).view.emb j)
  rw [el, er]
  exact mixed_point (grid1.coords t) t.val hco (iblk1 V c 0 t) (V c main_arg0) (iblk1 V c 1 t) (iblk1 V c 2 t) (iblk1 V c 3 t)
    (V c main_v5_0) (V c main_v5_1) (V c main_v5_2) (keys_whole V c t) (values_whole V c t)
    ⟨(j 0).val, hj0⟩ ⟨128 * t.val + (j 0).val, by omega⟩ rfl
    (fun d => xBand_apply V c t ⟨(j 0).val, hj0⟩ d ⟨128 * t.val + (j 0).val, by omega⟩ rfl)
    (fun d => qBand_apply V c t ⟨(j 0).val, hj0⟩ d ⟨128 * t.val + (j 0).val, by omega⟩ rfl) ⟨(j 1).val, hj1⟩

/-- An entry of the first residual is in band `t`'s block iff each coordinate is in the block's range. -/
theorem mem_mixedBlock (t : Fin cfg1.N) (i : S4096x1024.Idx) :
    i ∈ ((cfg1.win 5).blk t).view.set
      ↔ ∀ a : Fin 2, win1_5.index t a * S128x1024.size a ≤ (i a).val
          ∧ (i a).val < win1_5.index t a * S128x1024.size a + S128x1024.size a := by
  show i ∈ ((View.whole main_v6_1).slice (win1_5.rect t)).set ↔ _
  rw [View.set_slice_whole, Rect.mem_set_unit]
  exact Iff.rfl

/-- Every entry of the first residual is in the block of the band its row lies in. -/
theorem mixed_cover (i : S4096x1024.Idx) :
    ∃ t : Fin cfg1.N, (cfg1.win 5).flush t = true ∧ i ∈ ((cfg1.win 5).blk t).view.set := by
  have hi0 : (i 0).val < 4096 := (i 0).isLt
  have hi1 : (i 1).val < 1024 := (i 1).isLt
  have hN : cfg1.N = 32 := N_1
  obtain ⟨t, ht⟩ : ∃ t : Fin cfg1.N, t.val = (i 0).val / 128 := ⟨⟨(i 0).val / 128, by rw [hN]; omega⟩, rfl⟩
  obtain ⟨h00, h01, h10, h11, h20, h21, h30, h31, h40, h41, h50, h51, hco⟩ := index_facts t
  refine ⟨t, flush1_5 t, ?_⟩
  rw [mem_mixedBlock]
  intro a
  match a with
  | ⟨0, _⟩ =>
    show win1_5.index t (0 : Fin 2) * 128 ≤ (i 0).val ∧ (i 0).val < win1_5.index t (0 : Fin 2) * 128 + 128
    rw [h50, ht]; omega
  | ⟨1, _⟩ =>
    show win1_5.index t (1 : Fin 2) * 1024 ≤ (i 1).val ∧ (i 1).val < win1_5.index t (1 : Fin 2) * 1024 + 1024
    rw [h51]; omega

/-! ## The two arrays after the attention step -/

/-- The weights' array ends holding the row softmax of the masked scores of the whole sequence. -/
theorem attn_final (c : Dev nD) : (dat1 V c).arrAt 4 cfg1.N = Cert.Spec.attn 0 (V c main_v5_0) (V c main_v5_1) :=
  (dat1 V c).arrAt_eq_of_cover 4 (Cert.Spec.attn 0 (V c main_v5_0) (V c main_v5_1)) (fun t _ => weights_written V c t) weights_cover

/-- The first residual's array ends holding `x` plus the weights times the values, over the whole sequence. -/
theorem mix_final (c : Dev nD) : (dat1 V c).arrAt 5 cfg1.N = Cert.Spec.mix (V c main_arg0) (Cert.Spec.attn 0 (V c main_v5_0) (V c main_v5_1)) (V c main_v5_2) :=
  (dat1 V c).arrAt_eq_of_cover 5 (Cert.Spec.mix (V c main_arg0) (Cert.Spec.attn 0 (V c main_v5_0) (V c main_v5_1)) (V c main_v5_2))
    (fun t _ => mixed_written V c t) mixed_cover

end Cert.KernelIdeal.AttnValue

end
-- ==== Proof.FfnValue.lean ====
/-
  The feed-forward result as a whole array.

  The sequence's 4096 rows are processed in 16 bands of 256 rows. At band t the body computes, from the band of h and
  the whole weight matrices and biases, the feed-forward map of the band; the map reads, for its row r, only row r of
  h, so entry (p, c) of the band's result is entry (256 t + p, c) of the feed-forward map of the whole array. Each
  band's result is written back to rows 256 t … 256 t + 255 of the result array, and the bands fill the array (row r
  lies in band r / 256): after the run the result array is the feed-forward map of the whole arrays.
-/
import proofs.«144866_j23407571763374_1_alg».proof.Proof.FrameKernelIdeal
import proofs.«144866_j23407571763374_1_alg».proof.Proof.SpecBands
import proofs.«144866_j23407571763374_1_alg».proof.Proof.DenseBody
import Idealize.ShloMosaic.Lib.Pipeline.Value
import Idealize.ShloMosaic.Lib.ValueIdx

noncomputable section

namespace Cert.KernelIdeal.FfnValue

open Idealize.ShloMosaic Idealize.ShloMosaic.TcCoe Idealize.ShloMosaic.ValueIdx Idealize.SL.Sem Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

/-- The zero offsets of a whole-block access, on two axes and on one. -/
theorem zero2 : (![0, 0] : Fin 2 → Nat) = fun _ => 0 := funext fun a => by fin_cases a <;> rfl
theorem zero1 : (![0] : Fin 1 → Nat) = fun _ => 0 := funext fun a => by fin_cases a <;> rfl

/-! ## The windows' block indices, decided over the sixteen points

The rows' window and the result window move down one block of rows per point; the weights' and the biases' windows
stay on their one block, the whole array. -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 1) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 1) = 0 :=
  (by decide +kernel : ∀ t : Fin grid2.N, _)
theorem idx2_5 : ∀ t : Fin cfg2.N, win2_5.index t (0 : Fin 2) = t.val ∧ win2_5.index t (1 : Fin 2) = 0 :=
  (by decide +kernel : ∀ t : Fin grid2.N, _)

/-! ## The input windows' blocks read off their arrays -/

/-- Block t of the row-banded input is rows 256 t … 256 t + 255 of its array. -/
theorem blk2_0_apply (c : Dev nD) (t : Fin cfg2.N) (p : Fin 256) (k : Fin 1024) (r : Fin 4096) (hr : r.val = 256 * t.val + p.val) :
    (iblk2 V c 0 t : Vec Ideal S256x1024 .f32) (ix2 p k) = (V c main_v6_1 : Vec Ideal S4096x1024 .f32) (ix2 r k) := by
  obtain ⟨e0, e1⟩ := idx2_0 t
  unfold iblk2
  rw [View.read_apply]
  show V c main_v6_1 _ = V c main_v6_1 _
  congr 1
  funext a
  apply Fin.ext
  match a with
  | ⟨0, _⟩ => show win2_0.index t (0 : Fin 2) * 256 + 1 * p.val = r.val; rw [e0, hr]; omega
  | ⟨1, _⟩ => show win2_0.index t (1 : Fin 2) * 1024 + 1 * k.val = k.val; rw [e1]; omega

theorem blk2_1_eq (c : Dev nD) (t : Fin cfg2.N) : (iblk2 V c 1 t : Vec Ideal S1024x4096 .bf16) = V c main_v3 := by
  obtain ⟨e0, e1⟩ := idx2_1 t
  funext y
  unfold iblk2
  rw [View.read_apply]
  show V c main_v3 _ = V c main_v3 y
  congr 1
  funext a
  apply Fin.ext
  match a with
  | ⟨0, _⟩ => show win2_1.index t (0 : Fin 2) * 1024 + 1 * (y 0).val = (y 0).val; rw [e0]; omega
  | ⟨1, _⟩ => show win2_1.index t (1 : Fin 2) * 4096 + 1 * (y 1).val = (y 1).val; rw [e1]; omega

theorem blk2_2_eq (c : Dev nD) (t : Fin cfg2.N) : (iblk2 V c 2 t : Vec Ideal S4096 .f32) = V c main_arg8 := by
  have e0 := idx2_2 t
  funext y
  unfold iblk2
  rw [View.read_apply]
  show V c main_arg8 _ = V c main_arg8 y
  congr 1
  funext a
  apply Fin.ext
  match a with
  | ⟨0, _⟩ => show win2_2.index t (0 : Fin 1) * 4096 + 1 * (y 0).val = (y 0).val; rw [e0]; omega

theorem blk2_3_eq (c : Dev nD) (t : Fin cfg2.N) : (iblk2 V c 3 t : Vec Ideal S4096x1024 .bf16) = V c main_v4 := by
  obtain ⟨e0, e1⟩ := idx2_3 t
  funext y
  unfold iblk2
  rw [View.read_apply]
  show V c main_v4 _ = V c main_v4 y
  congr 1
  funext a
  apply Fin.ext
  match a with
  | ⟨0, _⟩ => show win2_3.index t (0 : Fin 2) * 4096 + 1 * (y 0).val = (y 0).val; rw [e0]; omega
  | ⟨1, _⟩ => show win2_3.index t (1 : Fin 2) * 1024 + 1 * (y 1).val = (y 1).val; rw [e1]; omega

theorem blk2_4_eq (c : Dev nD) (t : Fin cfg2.N) : (iblk2 V c 4 t : Vec Ideal S1024 .f32) = V c main_arg10 := by
  have e0 := idx2_4 t
  funext y
  unfold iblk2
  rw [View.read_apply]
  show V c main_arg10 _ = V c main_arg10 y
  congr 1
  funext a
  apply Fin.ext
  match a with
  | ⟨0, _⟩ => show win2_4.index t (0 : Fin 1) * 1024 + 1 * (y 0).val = (y 0).val; rw [e0]; omega

/-! ## The result (output window 5) -/

/-- What the body computes at entry j of the band's block is the feed-forward map of the whole arrays at the array's
    entry that j is embedded at: the body is the feed-forward map of the band (the dense body at an entry), the
    weights' and the biases' blocks are the whole arrays, and the map reads one row of h. -/
theorem point_out (c : Dev nD) (t : Fin cfg2.N) (j : S256x1024.Idx) :
    k2_pay1 (F := Ideal) (iblk2 V c 0 t) (iblk2 V c 1 t) (iblk2 V c 2 t) (iblk2 V c 3 t) (iblk2 V c 4 t) j
      = Cert.Spec.ffn (V c main_v6_1) (V c main_v3) (V c main_arg8) (V c main_v4) (V c main_arg10) (((cfg2.win 5).blk t).view.emb j) := by
  obtain ⟨p, q, rfl⟩ : ∃ (p : Fin 256) (q : Fin 1024), j = ix2 p q := ⟨j 0, j 1, eq_ix2 j⟩
  obtain ⟨e0, e1⟩ := idx2_5 t
  have hN : grid2.N = 16 := N_2
  have ht : t.val < grid2.N := t.isLt
  have hp : p.val < 256 := p.isLt
  have hr : 256 * t.val + p.val < 4096 := by omega
  have hemb : ((cfg2.win 5).blk t).view.emb (ix2 p q) = (ix2 (⟨256 * t.val + p.val, hr⟩ : Fin 4096) q : S4096x1024.Idx) := by
    funext a
    apply Fin.ext
    match a with
    | ⟨0, _⟩ => show win2_5.index t (0 : Fin 2) * 256 + 1 * p.val = 256 * t.val + p.val; rw [e0]; omega
    | ⟨1, _⟩ => show win2_5.index t (1 : Fin 2) * 1024 + 1 * q.val = q.val; rw [e1]; omega
  rw [hemb]
  refine (Cert.DenseBody.ffn_apply (iblk2 V c 0 t) (iblk2 V c 1 t) (iblk2 V c 2 t) (iblk2 V c 3 t) (iblk2 V c 4 t) p q).trans ?_
  refine (congrArg₂ (fun (w1 : Vec Ideal S1024x4096 .bf16) (b1 : Vec Ideal S4096 .f32) =>
      Cert.Spec.ffnAt (iblk2 V c 0 t : Vec Ideal S256x1024 .f32) w1 b1 (iblk2 V c 3 t : Vec Ideal S4096x1024 .bf16) (iblk2 V c 4 t : Vec Ideal S1024 .f32) p q)
      (blk2_1_eq V c t) (blk2_2_eq V c t)).trans ?_
  refine (congrArg₂ (fun (w2 : Vec Ideal S4096x1024 .bf16) (b2 : Vec Ideal S1024 .f32) =>
      Cert.Spec.ffnAt (iblk2 V c 0 t : Vec Ideal S256x1024 .f32) (V c main_v3) (V c main_arg8) w2 b2 p q)
      (blk2_3_eq V c t) (blk2_4_eq V c t)).trans ?_
  exact Cert.Spec.ffnAt_band (iblk2 V c 0 t : Vec Ideal S256x1024 .f32) (V c main_v6_1) (V c main_v3) (V c main_arg8) (V c main_v4) (V c main_arg10) p
    ⟨256 * t.val + p.val, hr⟩ q (fun d => blk2_0_apply V c t p d ⟨256 * t.val + p.val, hr⟩ rfl)

/-- What point t writes back is block t of the feed-forward map of the whole arrays. -/
theorem flushed_out (c : Dev nD) (t : Fin cfg2.N) :
    (dat2 V c).flushed 5 t = ((cfg2.win 5).blk t).view.read (Elt Ideal)
      (Cert.Spec.ffn (V c main_v6_1) (V c main_v3) (V c main_arg8) (V c main_v4) (V c main_arg10)) := by
  show (cfg2.win 5).cut (grid2.coords t) ((dat2 V c).after 5 t) = _
  rw [after2_5]
  unfold out2_5
  rw [View.canon_unit_zero zero2]
  simp only [View.ld_unit_zero (S := S256x1024) zero2, View.ld_unit_zero (S := S1024x4096) zero2, View.ld_unit_zero (S := S4096) zero1,
    View.ld_unit_zero (S := S4096x1024) zero2, View.ld_unit_zero (S := S1024) zero1]
  funext j
  show k2_pay1 (F := Ideal) (iblk2 V c 0 t) (iblk2 V c 1 t) (iblk2 V c 2 t) (iblk2 V c 3 t) (iblk2 V c 4 t) j
    = Cert.Spec.ffn (V c main_v6_1) (V c main_v3) (V c main_arg8) (V c main_v4) (V c main_arg10) (((cfg2.win 5).blk t).view.emb j)
  exact point_out V c t j

/-- An index of the array is in point t's block iff each coordinate is in the block's range on its axis. -/
theorem mem_blk_out (t : Fin cfg2.N) (i : S4096x1024.Idx) :
    i ∈ ((cfg2.win 5).blk t).view.set ↔ ∀ a : Fin 2, win2_5.index t a * S256x1024.size a ≤ (i a).val ∧ (i a).val < win2_5.index t a * S256x1024.size a + S256x1024.size a := by
  show i ∈ ((View.whole main_v7).slice (win2_5.rect t)).set ↔ _
  rw [View.set_slice_whole, Rect.mem_set_unit]
  exact Iff.rfl

/-- Every row r of the array lies in the block of the point r / 256, which writes its block back. -/
theorem cover_out (i : S4096x1024.Idx) : ∃ t : Fin cfg2.N, (cfg2.win 5).flush t = true ∧ i ∈ ((cfg2.win 5).blk t).view.set := by
  have hN : grid2.N = 16 := N_2
  have hi0 : (i 0).val < 4096 := (i 0).isLt
  have hi1 : (i 1).val < 1024 := (i 1).isLt
  obtain ⟨t, ht⟩ : ∃ t : Fin cfg2.N, t.val = (i 0).val / 256 :=
    ⟨⟨(i 0).val / 256, by show (i 0).val / 256 < grid2.N; rw [hN]; omega⟩, rfl⟩
  obtain ⟨e0, e1⟩ := idx2_5 t
  refine ⟨t, flush2_5 t, ?_⟩
  rw [mem_blk_out]
  intro a
  match a with
  | ⟨0, _⟩ => show win2_5.index t (0 : Fin 2) * 256 ≤ (i 0).val ∧ (i 0).val < win2_5.index t (0 : Fin 2) * 256 + 256; rw [e0]; omega
  | ⟨1, _⟩ => show win2_5.index t (1 : Fin 2) * 1024 ≤ (i 1).val ∧ (i 1).val < win2_5.index t (1 : Fin 2) * 1024 + 1024; rw [e1]; omega

/-! ## The result array after the run -/

theorem out_final (c : Dev nD) : (dat2 V c).arrAt 5 cfg2.N = Cert.Spec.ffn (V c main_v6_1) (V c main_v3) (V c main_arg8) (V c main_v4) (V c main_arg10) :=
  (dat2 V c).arrAt_eq_of_cover 5 (Cert.Spec.ffn (V c main_v6_1) (V c main_v3) (V c main_arg8) (V c main_v4) (V c main_arg10)) (fun t _ => flushed_out V c t) cover_out

end Cert.KernelIdeal.FfnValue

end
-- ==== Proof.KernelValue.lean ====
/-
  The kernel program's two results as functions of its launch memory.

  Walking back from the last region boundary: the output array is the feed-forward stage of the first residual, whose
  inputs are what the attention kernel left, whose inputs are what the projection kernel left, whose inputs are the
  launch arrays (the weight matrices through a rounding that is the identity at the ideal values).  Composed, the two
  result arrays are the block's two functions of the eleven argument arrays.
-/
import proofs.«144866_j23407571763374_1_alg».proof.Proof.KernelRun
import proofs.«144866_j23407571763374_1_alg».proof.Proof.ProjValue
import proofs.«144866_j23407571763374_1_alg».proof.Proof.AttnValue
import proofs.«144866_j23407571763374_1_alg».proof.Proof.FfnValue
import proofs.«144866_j23407571763374_1_alg».proof.Proof.Spec
import Idealize.ShloMosaic.Lib.StableHlo.Run

set_option maxRecDepth 16384

noncomputable section

namespace Cert.KernelIdeal.BlockValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-! ## After the host stretch -/

theorem W1_arg0 (c : Dev nD) : W1 m ρ c (Proc.devRef .tc main_arg0) = m ((c : Thread nD τ).loc main_arg0) :=
  RunValue.W1_of_unwritten m ρ c main_arg0 (by decide)
theorem W1_arg2 (c : Dev nD) : W1 m ρ c (Proc.devRef .tc main_arg2) = m ((c : Thread nD τ).loc main_arg2) :=
  RunValue.W1_of_unwritten m ρ c main_arg2 (by decide)
theorem W1_arg4 (c : Dev nD) : W1 m ρ c (Proc.devRef .tc main_arg4) = m ((c : Thread nD τ).loc main_arg4) :=
  RunValue.W1_of_unwritten m ρ c main_arg4 (by decide)
theorem W1_arg6 (c : Dev nD) : W1 m ρ c (Proc.devRef .tc main_arg6) = m ((c : Thread nD τ).loc main_arg6) :=
  RunValue.W1_of_unwritten m ρ c main_arg6 (by decide)
theorem W1_arg8 (c : Dev nD) : W1 m ρ c (Proc.devRef .tc main_arg8) = m ((c : Thread nD τ).loc main_arg8) :=
  RunValue.W1_of_unwritten m ρ c main_arg8 (by decide)
theorem W1_arg10 (c : Dev nD) : W1 m ρ c (Proc.devRef .tc main_arg10) = m ((c : Thread nD τ).loc main_arg10) :=
  RunValue.W1_of_unwritten m ρ c main_arg10 (by decide)

/-- A weight matrix rounded to the matmul format is, at the ideal values, the matrix itself. -/
theorem W1_v0 (c : Dev nD) : (W1 m ρ c (Proc.devRef .tc main_v0) : Cert.Spec.Mat 1024 1024) = m ((c : Thread nD τ).loc main_arg1) := by
  show StableHlo.after hostOps0 (W0 m ρ c) (Proc.devRef .tc main_v0) = _
  after_results
  rfl
theorem W1_v1 (c : Dev nD) : (W1 m ρ c (Proc.devRef .tc main_v1) : Cert.Spec.Mat 1024 1024) = m ((c : Thread nD τ).loc main_arg3) := by
  show StableHlo.after hostOps0 (W0 m ρ c) (Proc.devRef .tc main_v1) = _
  after_results
  rfl
theorem W1_v2 (c : Dev nD) : (W1 m ρ c (Proc.devRef .tc main_v2) : Cert.Spec.Mat 1024 1024) = m ((c : Thread nD τ).loc main_arg5) := by
  show StableHlo.after hostOps0 (W0 m ρ c) (Proc.devRef .tc main_v2) = _
  after_results
  rfl
theorem W1_v3 (c : Dev nD) : (W1 m ρ c (Proc.devRef .tc main_v3) : Cert.Spec.Mat 1024 4096) = m ((c : Thread nD τ).loc main_arg7) := by
  show StableHlo.after hostOps0 (W0 m ρ c) (Proc.devRef .tc main_v3) = _
  after_results
  rfl
theorem W1_v4 (c : Dev nD) : (W1 m ρ c (Proc.devRef .tc main_v4) : Cert.Spec.Mat 4096 1024) = m ((c : Thread nD τ).loc main_arg9) := by
  show StableHlo.after hostOps0 (W0 m ρ c) (Proc.devRef .tc main_v4) = _
  after_results
  rfl

/-! ## After the projection kernel -/

theorem W2_q (c : Dev nD) : W2 m ρ c (Proc.devRef .tc main_v5_0) = Cert.Spec.affine (m ((c : Thread nD τ).loc main_arg0)) (m ((c : Thread nD τ).loc main_arg1)) (m ((c : Thread nD τ).loc main_arg2)) := by
  refine (W2_arr m ρ c 7).trans ((ProjValue.q_final (V1 m ρ) c).trans ?_)
  show Cert.Spec.affine (W1 m ρ c (Proc.devRef .tc main_arg0)) (W1 m ρ c (Proc.devRef .tc main_v0)) (W1 m ρ c (Proc.devRef .tc main_arg2)) = _
  rw [W1_arg0, W1_v0, W1_arg2]
theorem W2_k (c : Dev nD) : W2 m ρ c (Proc.devRef .tc main_v5_1) = Cert.Spec.affine (m ((c : Thread nD τ).loc main_arg0)) (m ((c : Thread nD τ).loc main_arg3)) (m ((c : Thread nD τ).loc main_arg4)) := by
  refine (W2_arr m ρ c 8).trans ((ProjValue.k_final (V1 m ρ) c).trans ?_)
  show Cert.Spec.affine (W1 m ρ c (Proc.devRef .tc main_arg0)) (W1 m ρ c (Proc.devRef .tc main_v1)) (W1 m ρ c (Proc.devRef .tc main_arg4)) = _
  rw [W1_arg0, W1_v1, W1_arg4]
theorem W2_v (c : Dev nD) : W2 m ρ c (Proc.devRef .tc main_v5_2) = Cert.Spec.affine (m ((c : Thread nD τ).loc main_arg0)) (m ((c : Thread nD τ).loc main_arg5)) (m ((c : Thread nD τ).loc main_arg6)) := by
  refine (W2_arr m ρ c 9).trans ((ProjValue.v_final (V1 m ρ) c).trans ?_)
  show Cert.Spec.affine (W1 m ρ c (Proc.devRef .tc main_arg0)) (W1 m ρ c (Proc.devRef .tc main_v2)) (W1 m ρ c (Proc.devRef .tc main_arg6)) = _
  rw [W1_arg0, W1_v2, W1_arg6]
/-- An input array of the kernel is left as it was. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_v3 (c : Dev nD) : (W2 m ρ c (Proc.devRef .tc main_v3) : Cert.Spec.Mat 1024 4096) = m ((c : Thread nD τ).loc main_arg7) := by
  rw [W2_of_ne m ρ c main_v3 (by decide)]; exact W1_v3 m ρ c
theorem W2_v4 (c : Dev nD) : (W2 m ρ c (Proc.devRef .tc main_v4) : Cert.Spec.Mat 4096 1024) = m ((c : Thread nD τ).loc main_arg9) := by
  rw [W2_of_ne m ρ c main_v4 (by decide)]; exact W1_v4 m ρ c

/-! ## After the attention kernel -/

theorem W3_attn (c : Dev nD) : W3 m ρ c (Proc.devRef .tc main_v6_0) = Cert.Spec.blockAttn (m ((c : Thread nD τ).loc main_arg0)) (m ((c : Thread nD τ).loc main_arg1)) (m ((c : Thread nD τ).loc main_arg2)) (m ((c : Thread nD τ).loc main_arg3)) (m ((c : Thread nD τ).loc main_arg4)) := by
  refine (W3_arr m ρ c 4).trans ((AttnValue.attn_final (V2 m ρ) c).trans ?_)
  show Cert.Spec.attn 0 (W2 m ρ c (Proc.devRef .tc main_v5_0)) (W2 m ρ c (Proc.devRef .tc main_v5_1)) = _
  rw [W2_q, W2_k]; rfl
theorem W3_h (c : Dev nD) : W3 m ρ c (Proc.devRef .tc main_v6_1)
    = Cert.Spec.mix (m ((c : Thread nD τ).loc main_arg0)) (Cert.Spec.blockAttn (m ((c : Thread nD τ).loc main_arg0)) (m ((c : Thread nD τ).loc main_arg1)) (m ((c : Thread nD τ).loc main_arg2)) (m ((c : Thread nD τ).loc main_arg3)) (m ((c : Thread nD τ).loc main_arg4))) (Cert.Spec.affine (m ((c : Thread nD τ).loc main_arg0)) (m ((c : Thread nD τ).loc main_arg5)) (m ((c : Thread nD τ).loc main_arg6))) := by
  refine (W3_arr m ρ c 5).trans ((AttnValue.mix_final (V2 m ρ) c).trans ?_)
  show Cert.Spec.mix (W2 m ρ c (Proc.devRef .tc main_arg0)) (Cert.Spec.attn 0 (W2 m ρ c (Proc.devRef .tc main_v5_0)) (W2 m ρ c (Proc.devRef .tc main_v5_1))) (W2 m ρ c (Proc.devRef .tc main_v5_2)) = _
  rw [W2_arg0, W2_q, W2_k, W2_v]; rfl
theorem W3_arg8 (c : Dev nD) : W3 m ρ c (Proc.devRef .tc main_arg8) = m ((c : Thread nD τ).loc main_arg8) :=
  (W3_of_ne m ρ c main_arg8 (by decide)).trans (W2_arg8 m ρ c)
theorem W3_arg10 (c : Dev nD) : W3 m ρ c (Proc.devRef .tc main_arg10) = m ((c : Thread nD τ).loc main_arg10) :=
  (W3_of_ne m ρ c main_arg10 (by decide)).trans (W2_arg10 m ρ c)
theorem W3_v3 (c : Dev nD) : (W3 m ρ c (Proc.devRef .tc main_v3) : Cert.Spec.Mat 1024 4096) = m ((c : Thread nD τ).loc main_arg7) := by
  rw [W3_of_ne m ρ c main_v3 (by decide)]; exact W2_v3 m ρ c
theorem W3_v4 (c : Dev nD) : (W3 m ρ c (Proc.devRef .tc main_v4) : Cert.Spec.Mat 4096 1024) = m ((c : Thread nD τ).loc main_arg9) := by
  rw [W3_of_ne m ρ c main_v4 (by decide)]; exact W2_v4 m ρ c

/-! ## After the feed-forward kernel: the two results -/

theorem W4_out (c : Dev nD) : W4 m ρ c (Proc.devRef .tc main_v7) = Cert.Spec.blockOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 5).trans ((FfnValue.out_final (V3 m ρ) c).trans ?_)
  show Cert.Spec.ffn (W3 m ρ c (Proc.devRef .tc main_v6_1)) (W3 m ρ c (Proc.devRef .tc main_v3)) (W3 m ρ c (Proc.devRef .tc main_arg8)) (W3 m ρ c (Proc.devRef .tc main_v4)) (W3 m ρ c (Proc.devRef .tc main_arg10)) = _
  rw [W3_h, W3_v3, W3_arg8, W3_v4, W3_arg10]; rfl
theorem W4_attn (c : Dev nD) : W4 m ρ c (Proc.devRef .tc main_v6_0) = Cert.Spec.blockAttn (m ((c : Thread nD τ).loc main_arg0)) (m ((c : Thread nD τ).loc main_arg1)) (m ((c : Thread nD τ).loc main_arg2)) (m ((c : Thread nD τ).loc main_arg3)) (m ((c : Thread nD τ).loc main_arg4)) :=
  (W4_of_ne m ρ c main_v6_0 (by decide)).trans (W3_attn m ρ c)

/-- The kernel program's run at the ideal values: the two result arrays end at the block's two functions of the
    argument arrays, the arguments unchanged. -/
theorem run : θ_run defs (onTc (τ := τ) (main (F := Ideal))) ⟨m, fun _ => 0, ρ⟩ (fun r => ∀ c : Dev nD,
      r.2.mem ((c.tc : Thread nD τ).loc main_v7) = Cert.Spec.blockOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v6_0) = Cert.Spec.blockAttn (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W4_out m ρ c), (h c).2.1.trans (W4_attn m ρ c), (h c).2.2⟩)
    (RunValue.run_named m ρ)

end Cert.KernelIdeal.BlockValue

end
-- ==== Proof.RefValue.lean ====
/-
  The reference program's values, read index by index, are the specification's functions.

  Each stage of the reference (the three affine maps, the scaled and causally masked scores, the row maximum, the
  shifted exponential, the row sum, the quotient, the first residual, the hidden layer and the second residual) is
  read at an index (r, c) from the generated per-operation equations and identified there with the corresponding
  function of the specification. A finished stage is only ever cited as an equation between arrays, never unfolded
  again by the later ones.
-/
import proofs.«144866_j23407571763374_1_alg».proof.Proof.ReadReferenceIdeal
import proofs.«144866_j23407571763374_1_alg».proof.Proof.Spec
import Idealize.ShloMosaic.Lib.ValueIdx
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.ReadP
open scoped BigOperators

/-- The arrays of the program at the ideal values, by shape. -/
abbrev A4096x1024 := (⟨S4096x1024, .f32⟩ : BufTy).Contents (Elt Ideal)
abbrev A1024x1024 := (⟨S1024x1024, .f32⟩ : BufTy).Contents (Elt Ideal)
abbrev A1024x4096 := (⟨S1024x4096, .f32⟩ : BufTy).Contents (Elt Ideal)
abbrev A4096x4096 := (⟨S4096x4096, .f32⟩ : BufTy).Contents (Elt Ideal)
abbrev A1024 := (⟨S1024, .f32⟩ : BufTy).Contents (Elt Ideal)
abbrev A4096 := (⟨S4096, .f32⟩ : BufTy).Contents (Elt Ideal)

/-! ## The three affine maps -/

/-- `x·w + b` at (r, c): the contraction runs over the row of `x` and the column of `w`; the bias is read at the column. -/
theorem v3_eq (x0 : A4096x1024) (x1 : A1024x1024) (x2 : A1024) :
    val_main_v3 (F := Ideal) x0 x1 x2 = Cert.Spec.affine (R := 4096) (K := 1024) (C := 1024) x0 x1 x2 := by
  funext i
  obtain ⟨r, c, rfl⟩ : ∃ (r : Fin 4096) (c : Fin 1024), i = ix2 r c := ⟨i 0, i 1, eq_ix2 i⟩
  have el : ∀ k : Fin 1024, lidx_main_v0 (ix2 r c) k = ix2 r k := fun k =>
    funext fun a => Fin.ext (by match a with | ⟨0, _⟩ => rfl | ⟨1, _⟩ => rfl)
  have er : ∀ k : Fin 1024, ridx_main_v0 (ix2 r c) k = ix2 k c := fun k =>
    funext fun a => Fin.ext (by match a with | ⟨0, _⟩ => rfl | ⟨1, _⟩ => rfl)
  have eb : idx_main_v1 (idx_main_v2 (ix2 r c)) = ix1 c :=
    funext fun a => Fin.ext (by match a with | ⟨0, _⟩ => rfl)
  rw [val_main_v3_apply, val_main_v0_apply, val_main_v2_apply, val_main_v1_apply, eb]
  simp only [el, er, Ideal.addf_def]
  rfl

/-- The key and value maps are the same program text over other weights. -/
theorem v7_eq (x0 : A4096x1024) (x3 : A1024x1024) (x4 : A1024) :
    val_main_v7 (F := Ideal) x0 x3 x4 = Cert.Spec.affine (R := 4096) (K := 1024) (C := 1024) x0 x3 x4 :=
  (show val_main_v7 (F := Ideal) x0 x3 x4 = val_main_v3 (F := Ideal) x0 x3 x4 from rfl).trans (v3_eq x0 x3 x4)

theorem v11_eq (x0 : A4096x1024) (x5 : A1024x1024) (x6 : A1024) :
    val_main_v11 (F := Ideal) x0 x5 x6 = Cert.Spec.affine (R := 4096) (K := 1024) (C := 1024) x0 x5 x6 :=
  (show val_main_v11 (F := Ideal) x0 x5 x6 = val_main_v3 (F := Ideal) x0 x5 x6 from rfl).trans (v3_eq x0 x5 x6)

/-- The query, key and value arrays of the specification: the affine maps of the input rows. -/
abbrev Aff (x : A4096x1024) (w : A1024x1024) (b : A1024) : Cert.Spec.Mat 4096 1024 :=
  Cert.Spec.affine (R := 4096) (K := 1024) (C := 1024) x w b

/-! ## The scaled score -/

/-- The quotient of `q·kᵀ` by √1024 at (r, c) is the scaled score of query row `r` against key row `c`: the
    transposed key array is read at (k, c), which is the key array at (c, k). -/
theorem v16_apply (x0 : A4096x1024) (x1 : A1024x1024) (x2 : A1024) (x3 : A1024x1024) (x4 : A1024) (r c : Fin 4096) :
    val_main_v16 (F := Ideal) x0 x1 x2 x3 x4 (ix2 r c)
      = Cert.Spec.scoreAt (M := 4096) (N := 4096) (D := 1024) (Aff x0 x1 x2) (Aff x0 x3 x4) r c := by
  have el : ∀ k : Fin 1024, lidx_main_v13 (ix2 r c) k = ix2 r k := fun k =>
    funext fun a => Fin.ext (by match a with | ⟨0, _⟩ => rfl | ⟨1, _⟩ => rfl)
  have er : ∀ k : Fin 1024, idx_main_v12 (ridx_main_v13 (ix2 r c) k) = ix2 c k := fun k =>
    funext fun a => Fin.ext (by match a with | ⟨0, _⟩ => rfl | ⟨1, _⟩ => rfl)
  rw [val_main_v16_apply, val_main_v13_apply, val_main_v15_apply, val_main_v14_apply, val_main_cst_apply]
  simp only [val_main_v12_apply, el, er, v3_eq, v7_eq, Ideal.hostDivf_def, Ideal.hostUnary_sqrt_def, Ideal.ofBits_def]
  rw [Cert.Spec.div_sqrt_1024]
  rfl

/-! ## The causal mask -/

/-- For naturals below 4096 the signed order of their 32-bit words is the order of the naturals: both words are
    non-negative as signed integers and equal to the naturals. -/
theorem sle_ofNat (a b : Nat) (ha : a < 4096) (hb : b < 4096) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]
    omega
  have eb : (BitVec.ofNat 32 b).toInt = (b : Int) := by
    rw [BitVec.toInt_eq_toNat_of_lt (by rw [BitVec.toNat_ofNat]; omega), BitVec.toNat_ofNat]
    omega
  rw [BitVec.sle, ea, eb]
  simp

/-- "row + 0 ≥ column" selects the bit 0, everything else keeps the bit 1: the bit is set exactly where the column
    is after the row. -/
theorem mask_bit (r c : Fin 4096) :
    Scalar.select (IntOp.cmpi .sge (IntOp.addi (BitVec.ofNat 32 r.val) 0#32) (BitVec.ofNat 32 c.val)) (0#1) (1#1)
      = if r.val < c.val then 1#1 else 0#1 := by
  show Scalar.select (BitVec.ofBool ((BitVec.ofNat 32 c.val).sle (BitVec.ofNat 32 r.val + 0#32))) (0#1) (1#1) = _
  rw [BitVec.add_zero, sle_ofNat c.val r.val c.isLt r.isLt]
  by_cases h : c.val ≤ r.val
  · rw [decide_eq_true h, if_neg (by omega)]; rfl
  · rw [decide_eq_false h, if_pos (by omega)]; rfl

/-- The upper-triangular mask at (r, c). -/
theorem v18_apply (r c : Fin 4096) :
    val_main_v18 (F := Ideal) (ix2 r c) = if r.val < c.val then 1#1 else 0#1 := by
  rw [val_main_v18_apply, val_main_call0_v4_apply, val_main_call0_v2_apply, val_main_call0_v0_apply,
    val_main_call0_v1_apply, val_main_call0_c_apply, val_main_call0_v3_apply, val_main_call0_v5_apply,
    val_main_call0_c_0_apply, val_main_v17_apply, val_main_c_apply]
  exact mask_bit r c

/-- The masked score at (r, c): the stand-in −10⁹ where the key is after the query, the scaled score elsewhere. -/
theorem v19_apply (x0 : A4096x1024) (x1 : A1024x1024) (x2 : A1024) (x3 : A1024x1024) (x4 : A1024) (r c : Fin 4096) :
    val_main_v19 (F := Ideal) x0 x1 x2 x3 x4 (ix2 r c)
      = Cert.Spec.maskedAt (M := 4096) (N := 4096) (D := 1024) 0 (Aff x0 x1 x2) (Aff x0 x3 x4) r c := by
  rw [val_main_v19_apply, v18_apply, v16_apply, val_main_call1_v0_apply, val_main_cst_0_apply]
  unfold Cert.Spec.maskedAt
  by_cases h : r.val < c.val
  · rw [if_pos h, if_pos (by omega), select_one]; rfl
  · rw [if_neg h, if_neg (by omega), select_zero]

/-! ## The row maximum -/

/-- Row `r`'s index with the column `k` put back is (r, k). -/
theorem lift_row (h : S4096x4096.Reduces [1] S4096) (r : Fin 4096) (k : Fin (S4096x4096.size 1)) :
    h.lift (ix1 r) k = ix2 r (⟨k.val, k.isLt⟩ : Fin 4096) := by
  funext a; apply Fin.ext
  match a with
  | ⟨0, _⟩ => rfl
  | ⟨1, _⟩ => rfl

/-- A maximum-reduction over the columns, from −∞, is at row `r` the fold of `max` over that row. -/
theorem fold_row (x : FVec Ideal S4096x4096 .f32) (h' : S4096x4096.ReducesTo [1] S4096) (hu : 0 < S_.numel) (r : Fin 4096) :
    Host.reduce FloatOps.maximumf x (constant (F := Ideal) S_ .f32 0xFF800000#32) h' hu (ix1 r)
      = (Finset.univ : Finset (Fin 4096)).fold max (Ideal.ofBits .f32 0xFF800000#32) (fun c => x (ix2 r c)) := by
  have h : S4096x4096.Reduces [1] S4096 := by decide
  rw [Host.reduce_eq_fold_single FloatOps.maximumf x _ h' h hu]
  have hf : (x ∘ h.lift (ix1 r)) = fun k : Fin 4096 => x (ix2 r k) := funext fun k => congrArg x (lift_row h r k)
  rw [hf]
  rfl

/-- The row maximum of the masked scores. -/
theorem v20_apply (x0 : A4096x1024) (x1 : A1024x1024) (x2 : A1024) (x3 : A1024x1024) (x4 : A1024) (r : Fin 4096) :
    val_main_v20 (F := Ideal) x0 x1 x2 x3 x4 (ix1 r)
      = Cert.Spec.rowMax (M := 4096) (N := 4096) (D := 1024) 0 (Aff x0 x1 x2) (Aff x0 x3 x4) r := by
  unfold val_main_v20
  refine (fold_row (val_main_v19 (F := Ideal) x0 x1 x2 x3 x4) _ _ r).trans ?_
  unfold Cert.Spec.rowMax
  exact congrArg (fun f : Fin 4096 → EReal => (Finset.univ : Finset (Fin 4096)).fold max Cert.Spec.negInfW f)
    (funext fun k => v19_apply x0 x1 x2 x3 x4 r k)

/-- Taking the maximum with −∞ once more changes nothing: the fold started from −∞ is at least −∞. -/
theorem v22_apply (x0 : A4096x1024) (x1 : A1024x1024) (x2 : A1024) (x3 : A1024x1024) (x4 : A1024) (r : Fin 4096) :
    val_main_v22 (F := Ideal) x0 x1 x2 x3 x4 (ix1 r)
      = Cert.Spec.rowMax (M := 4096) (N := 4096) (D := 1024) 0 (Aff x0 x1 x2) (Aff x0 x3 x4) r := by
  rw [val_main_v22_apply, v20_apply, val_main_v21_apply, val_main_cst_2_apply]
  simp only [Ideal.maximumf_def, Ideal.ofBits_def]
  unfold Cert.Spec.rowMax
  exact max_eq_right ((Finset.le_fold_max _).mpr (Or.inl le_rfl))

/-! ## The shifted exponential, the row sum and the quotient -/

theorem v26_apply (x0 : A4096x1024) (x1 : A1024x1024) (x2 : A1024) (x3 : A1024x1024) (x4 : A1024) (r c : Fin 4096) :
    val_main_v26 (F := Ideal) x0 x1 x2 x3 x4 (ix2 r c)
      = Cert.Spec.expAt (M := 4096) (N := 4096) (D := 1024) 0 (Aff x0 x1 x2) (Aff x0 x3 x4) r c := by
  have e : idx_main_v23 (idx_main_v24 (ix2 r c)) = ix1 r :=
    funext fun a => Fin.ext (by match a with | ⟨0, _⟩ => rfl)
  rw [val_main_v26_apply, val_main_v25_apply, val_main_v24_apply, val_main_v23_apply, e, v22_apply, v19_apply]
  rfl

/-- The sum-reduction over the columns starts from the zero word, which is 0. -/
theorem v27_apply (x0 : A4096x1024) (x1 : A1024x1024) (x2 : A1024) (x3 : A1024x1024) (x4 : A1024) (r : Fin 4096) :
    val_main_v27 (F := Ideal) x0 x1 x2 x3 x4 (ix1 r)
      = Cert.Spec.rowSum (M := 4096) (N := 4096) (D := 1024) 0 (Aff x0 x1 x2) (Aff x0 x3 x4) r := by
  have e : ∀ k : Fin 4096, idx_main_v27 (ix1 r) k = ix2 r k := fun k =>
    funext fun a => Fin.ext (by match a with | ⟨0, _⟩ => rfl | ⟨1, _⟩ => rfl)
  rw [val_main_v27_apply, val_main_cst_3_apply]
  simp only [e, v26_apply, Ideal.ofBits_def, Ideal.ofBits_zero_f32, zero_add]
  rfl

/-- The attention weights at (r, c). -/
theorem v30_apply (x0 : A4096x1024) (x1 : A1024x1024) (x2 : A1024) (x3 : A1024x1024) (x4 : A1024) (r c : Fin 4096) :
    val_main_v30 (F := Ideal) x0 x1 x2 x3 x4 (ix2 r c)
      = Cert.Spec.attnAt (M := 4096) (N := 4096) (D := 1024) 0 (Aff x0 x1 x2) (Aff x0 x3 x4) r c := by
  have e : idx_main_v28 (idx_main_v29 (ix2 r c)) = ix1 r :=
    funext fun a => Fin.ext (by match a with | ⟨0, _⟩ => rfl)
  rw [val_main_v30_apply, val_main_v29_apply, val_main_v28_apply, e, v27_apply, v26_apply]
  rfl

/-! ## The first residual, the hidden layer and the second residual -/

/-- The attention weights as an array. -/
theorem v30_eq (x0 : A4096x1024) (x1 : A1024x1024) (x2 : A1024) (x3 : A1024x1024) (x4 : A1024) :
    val_main_v30 (F := Ideal) x0 x1 x2 x3 x4 = Cert.Spec.blockAttn x0 x1 x2 x3 x4 := by
  funext i
  obtain ⟨r, c, rfl⟩ : ∃ (r : Fin 4096) (c : Fin 4096), i = ix2 r c := ⟨i 0, i 1, eq_ix2 i⟩
  rw [v30_apply]
  rfl

/-- `x + a·v` at (r, c). -/
theorem v32_eq (x0 : A4096x1024) (x1 : A1024x1024) (x2 : A1024) (x3 : A1024x1024) (x4 : A1024) (x5 : A1024x1024) (x6 : A1024) :
    val_main_v32 (F := Ideal) x0 x1 x2 x3 x4 x5 x6
      = Cert.Spec.mix (M := 4096) (N := 4096) (D := 1024) x0 (Cert.Spec.blockAttn x0 x1 x2 x3 x4) (Aff x0 x5 x6) := by
  funext i
  obtain ⟨r, c, rfl⟩ : ∃ (r : Fin 4096) (c : Fin 1024), i = ix2 r c := ⟨i 0, i 1, eq_ix2 i⟩
  have el : ∀ k : Fin 4096, lidx_main_v31 (ix2 r c) k = ix2 r k := fun k =>
    funext fun a => Fin.ext (by match a with | ⟨0, _⟩ => rfl | ⟨1, _⟩ => rfl)
  have er : ∀ k : Fin 4096, ridx_main_v31 (ix2 r c) k = ix2 k c := fun k =>
    funext fun a => Fin.ext (by match a with | ⟨0, _⟩ => rfl | ⟨1, _⟩ => rfl)
  rw [val_main_v32_apply, val_main_v31_apply]
  simp only [el, er, v30_eq, v11_eq, Ideal.addf_def]
  rfl

/-- `max (h·W1 + b1) 0` at (r, e), the zero kept as the word the program prints. -/
theorem v37_eq (x0 : A4096x1024) (x1 : A1024x1024) (x2 : A1024) (x3 : A1024x1024) (x4 : A1024) (x5 : A1024x1024) (x6 : A1024)
    (x7 : A1024x4096) (x8 : A4096) :
    val_main_v37 (F := Ideal) x0 x1 x2 x3 x4 x5 x6 x7 x8
      = Cert.Spec.hidden (N := 4096) (D := 1024) (E := 4096)
          (Cert.Spec.mix (M := 4096) (N := 4096) (D := 1024) x0 (Cert.Spec.blockAttn x0 x1 x2 x3 x4) (Aff x0 x5 x6)) x7 x8 := by
  funext i
  obtain ⟨r, c, rfl⟩ : ∃ (r : Fin 4096) (c : Fin 4096), i = ix2 r c := ⟨i 0, i 1, eq_ix2 i⟩
  have el : ∀ k : Fin 1024, lidx_main_v33 (ix2 r c) k = ix2 r k := fun k =>
    funext fun a => Fin.ext (by match a with | ⟨0, _⟩ => rfl | ⟨1, _⟩ => rfl)
  have er : ∀ k : Fin 1024, ridx_main_v33 (ix2 r c) k = ix2 k c := fun k =>
    funext fun a => Fin.ext (by match a with | ⟨0, _⟩ => rfl | ⟨1, _⟩ => rfl)
  have eb : idx_main_v34 (idx_main_v35 (ix2 r c)) = ix1 c :=
    funext fun a => Fin.ext (by match a with | ⟨0, _⟩ => rfl)
  rw [val_main_v37_apply, val_main_v36_apply, val_main_v33_apply, val_main_v35_apply, val_main_v34_apply, eb,
    val_main_call2_v0_apply, val_main_call2_cst_apply]
  simp only [el, er, v32_eq, Ideal.addf_def, Ideal.maximumf_def, Ideal.ofBits_def]
  rfl

/-! ## The two results -/

theorem attn_eq (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) :
    val_main_v30 (F := Ideal) x0 x1 x2 x3 x4 = Cert.Spec.blockAttn x0 x1 x2 x3 x4 :=
  v30_eq x0 x1 x2 x3 x4

theorem out_eq (x0 : (⟨S4096x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x4096, .f32⟩ : BufTy).Contents (Elt Ideal)) (x8 : (⟨S4096, .f32⟩ : BufTy).Contents (Elt Ideal)) (x9 : (⟨S4096x1024, .f32⟩ : BufTy).Contents (Elt Ideal)) (x10 : (⟨S1024, .f32⟩ : BufTy).Contents (Elt Ideal)) :
    val_main_v42 (F := Ideal) x0 x1 x2 x3 x4 x5 x6 x7 x8 x9 x10 = Cert.Spec.blockOut x0 x1 x2 x3 x4 x5 x6 x7 x8 x9 x10 := by
  funext i
  obtain ⟨r, c, rfl⟩ : ∃ (r : Fin 4096) (c : Fin 1024), i = ix2 r c := ⟨i 0, i 1, eq_ix2 i⟩
  have el : ∀ k : Fin 4096, lidx_main_v38 (ix2 r c) k = ix2 r k := fun k =>
    funext fun a => Fin.ext (by match a with | ⟨0, _⟩ => rfl | ⟨1, _⟩ => rfl)
  have er : ∀ k : Fin 4096, ridx_main_v38 (ix2 r c) k = ix2 k c := fun k =>
    funext fun a => Fin.ext (by match a with | ⟨0, _⟩ => rfl | ⟨1, _⟩ => rfl)
  have eb : idx_main_v39 (idx_main_v40 (ix2 r c)) = ix1 c :=
    funext fun a => Fin.ext (by match a with | ⟨0, _⟩ => rfl)
  rw [val_main_v42_apply, val_main_v41_apply, val_main_v38_apply, val_main_v40_apply, val_main_v39_apply, eb]
  simp only [el, er, v32_eq, v37_eq, Ideal.addf_def]
  rfl

end Cert.RefValue

end
-- ==== Proof.lean ====
/-
  The proof of `Cert.Claim`: one transformer block — three projections, causal softmax attention with a residual,
  and a two-layer feed-forward stage with a residual — computed by three kernels against the same block in plain
  array operations.

  The three frames: each kernel program runs band by band with every block inside its array, and the reference is a
  straight line of array operations; the argument arrays are only read.  The idealized kernel program is the printed
  program read at the extended reals, so there is nothing to preserve.  At the extended reals both programs end with
  the SAME two functions of the eleven argument arrays (`Cert.Spec.blockOut`, `Cert.Spec.blockAttn`): on the kernel
  side each kernel's bands tile its result arrays and each band is the stage's function of the band's rows; on the
  reference side each array operation read at an index is the stage's formula.  The one place the two texts differ is
  the scale of the scores, a quotient by √1024 against a product with 2⁻⁵, equal on every extended real.  No step
  needs the inputs to be finite.
-/
import proofs.«144866_j23407571763374_1_alg».proof.Defs
import proofs.«144866_j23407571763374_1_alg».proof.Proof.Gen.Kernel
import proofs.«144866_j23407571763374_1_alg».proof.Proof.Gen.KernelIdeal
import proofs.«144866_j23407571763374_1_alg».proof.Proof.Gen.ReferenceIdeal
import proofs.«144866_j23407571763374_1_alg».proof.Proof.Gen.Pre_finite_inputs
import proofs.«144866_j23407571763374_1_alg».proof.Proof.FrameKernel
import proofs.«144866_j23407571763374_1_alg».proof.Proof.FrameKernelIdeal
import proofs.«144866_j23407571763374_1_alg».proof.Proof.KernelValue
import proofs.«144866_j23407571763374_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both programs end, from memories that agree on the arguments, with the block's two functions of the arguments. -/
theorem algebraic : Cert.algebraic_KernelIdeal_ReferenceIdeal := by
  intro m ρ m' ρ' _ hagree
  refine ⟨_, _, Cert.KernelIdeal.BlockValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v42_eq, Cert.RefValue.out_eq]
    obtain ⟨h0, h1, h2, h3, h4, h5, h6, h7, h8, h9, h10⟩ := hagree c
    rw [h0, h1, h2, h3, h4, h5, h6, h7, h8, h9, h10]
  · rw [Cert.ReferenceIdeal.ReadP.val_main_v30_eq, Cert.RefValue.attn_eq]
    obtain ⟨h0, h1, h2, h3, h4, -⟩ := hagree c
    rw [h0, h1, h2, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
